-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S600000 : Shape := ⟨1, ![600000]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S128 .f32) (main_arg16 : FVec F S128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg11 : FVec F S128x128 .f32) (main_arg12 : FVec F S128x128 .f32) (main_arg13 : FVec F S128x128 .f32) (main_arg14 : FVec F S128 .f32) (main_arg15 : FVec F S128 .f32) (main_arg16 : FVec F S128 .f32) (main_arg17 : FVec F S128 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_v48 main_v49 main_v50

def fn_part1 {F : FTy → Type} [FloatOps F] (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128 .f32) (main_arg15 : FVec F S128 .f32) (main_arg16 : FVec F S128 .f32) (main_arg17 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : FVec F S100000x128 .f32) (main_arg1 : FVec F S50000x128 .f32) (main_arg2 : IVec S600000 32) (main_arg3 : IVec S600000 32) (main_arg4 : IVec S500000 32) (main_arg5 : IVec S500000 32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128 .f32) (main_arg15 : FVec F S128 .f32) (main_arg16 : FVec F S128 .f32) (main_arg17 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_arg13 main_arg14 main_arg15 main_arg16 main_arg17 main_v13 main_v16
-- ==== Kernel.lean ====
abbrev S100000x128 : Shape := ⟨2, ![100000, 128]⟩
abbrev S50000x128 : Shape := ⟨2, ![50000, 128]⟩
abbrev S600000 : Shape := ⟨1, ![600000]⟩
abbrev S500000 : Shape := ⟨1, ![500000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S5000x128 : Shape := ⟨2, ![5000, 128]⟩
abbrev S100000x1 : Shape := ⟨2, ![100000, 1]⟩
abbrev S500000x1 : Shape := ⟨2, ![500000, 1]⟩
abbrev S500000x128 : Shape := ⟨2, ![500000, 128]⟩
abbrev S5000x1 : Shape := ⟨2, ![5000, 1]⟩
abbrev S5000 : Shape := ⟨1, ![5000]⟩

abbrev nBuf : Space → Nat
  | .hbm => 148
  | .vmem => 42
  | .smem => 0
  | _ => 0

abbrev hbmTy0_0 (i : Nat) : BufTy := match i % 128 with
  | 0 => ⟨S100000x128, .f32⟩
  | 1 => ⟨S50000x128, .f32⟩
  | 2 => ⟨S600000, .i32⟩
  | 3 => ⟨S600000, .i32⟩
  | 4 => ⟨S500000, .i32⟩
  | 5 => ⟨S500000, .i32⟩
  | 6 => ⟨S128x128, .f32⟩
  | 7 => ⟨S128x128, .f32⟩
  | 8 => ⟨S128x128, .f32⟩
  | 9 => ⟨S128x128, .f32⟩
  | 10 => ⟨S128x128, .f32⟩
  | 11 => ⟨S128x128, .f32⟩
  | 12 => ⟨S128x128, .f32⟩
  | 13 => ⟨S128x128, .f32⟩
  | 14 => ⟨S128, .f32⟩
  | 15 => ⟨S128, .f32⟩
  | 16 => ⟨S128, .f32⟩
  | 17 => ⟨S128, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S_, .f32⟩
  | 28 => ⟨S50000x128, .f32⟩
  | 29 => ⟨S600000x1, .i32⟩
  | 30 => ⟨S50000x128, .f32⟩
  | 31 => ⟨S_, .f32⟩
  | 32 => ⟨S600000x1, .f32⟩
  | 33 => ⟨S_, .f32⟩
  | 34 => ⟨S50000x1, .f32⟩
  | 35 => ⟨S600000x1, .i32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S1x128, .f32⟩
  | 43 => ⟨S50000x128, .f32⟩
  | 44 => ⟨S_, .f32⟩
  | 45 => ⟨S50000x128, .f32⟩
  | 46 => ⟨S50000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S_, .f32⟩
  | 57 => ⟨S100000x128, .f32⟩
  | 58 => ⟨S600000x1, .i32⟩
  | 59 => ⟨S100000x128, .f32⟩
  | 60 => ⟨S_, .f32⟩
  | 61 => ⟨S600000x1, .f32⟩
  | 62 => ⟨S_, .f32⟩
  | 63 => ⟨S100000x1, .f32⟩
  | 64 => ⟨S600000x1, .i32⟩
  | 65 => ⟨S100000x1, .f32⟩
  | 66 => ⟨S_, .f32⟩
  | 67 => ⟨S100000x1, .f32⟩
  | 68 => ⟨S100000x1, .f32⟩
  | 69 => ⟨S100000x128, .f32⟩
  | 70 => ⟨S100000x128, .f32⟩
  | 71 => ⟨S1x128, .f32⟩
  | 72 => ⟨S100000x128, .f32⟩
  | 73 => ⟨S_, .f32⟩
  | 74 => ⟨S100000x128, .f32⟩
  | 75 => ⟨S100000x128, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S_, .f32⟩
  | 86 => ⟨S50000x128, .f32⟩
  | 87 => ⟨S600000x1, .i32⟩
  | 88 => ⟨S50000x128, .f32⟩
  | 89 => ⟨S_, .f32⟩
  | 90 => ⟨S600000x1, .f32⟩
  | 91 => ⟨S_, .f32⟩
  | 92 => ⟨S50000x1, .f32⟩
  | 93 => ⟨S600000x1, .i32⟩
  | 94 => ⟨S50000x1, .f32⟩
  | 95 => ⟨S_, .f32⟩
  | 96 => ⟨S50000x1, .f32⟩
  | 97 => ⟨S50000x1, .f32⟩
  | 98 => ⟨S50000x128, .f32⟩
  | 99 => ⟨S50000x128, .f32⟩
  | 100 => ⟨S1x128, .f32⟩
  | 101 => ⟨S50000x128, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .f32⟩
  | 111 => ⟨S_, .f32⟩
  | 112 => ⟨S100000x128, .f32⟩
  | 113 => ⟨S600000x1, .i32⟩
  | 114 => ⟨S100000x128, .f32⟩
  | 115 => ⟨S_, .f32⟩
  | 116 => ⟨S600000x1, .f32⟩
  | 117 => ⟨S_, .f32⟩
  | 118 => ⟨S100000x1, .f32⟩
  | 119 => ⟨S600000x1, .i32⟩
  | 120 => ⟨S100000x1, .f32⟩
  | 121 => ⟨S_, .f32⟩
  | 122 => ⟨S100000x1, .f32⟩
  | 123 => ⟨S100000x1, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x128, .f32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x128, .f32⟩
  | 18 => ⟨S500000x1, .f32⟩
  | 19 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .f32⟩
  | .local _ .vmem, ⟨41, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_call0_cst : Ref sig .tc := ⟨.hbm, 44, rfl⟩
abbrev main_call0_v0 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_c_5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_6 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_7 : Ref sig .tc := ⟨.hbm, 60, rfl⟩
abbrev main_v31 : Ref sig .tc := ⟨.hbm, 61, rfl⟩
abbrev main_cst_8 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_9 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_call1_cst : Ref sig .tc := ⟨.hbm, 73, rfl⟩
abbrev main_call1_v0 : Ref sig .tc := ⟨.hbm, 74, rfl⟩
abbrev main_v41 : Ref sig .tc := ⟨.hbm, 75, rfl⟩
abbrev main_c_10 : Ref sig .tc := ⟨.hbm, 76, rfl⟩
abbrev main_v42 : Ref sig .tc := ⟨.hbm, 77, rfl⟩
abbrev main_v43 : Ref sig .tc := ⟨.hbm, 78, rfl⟩
abbrev main_c_11 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_12 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_13 : Ref sig .tc := ⟨.hbm, 89, rfl⟩
abbrev main_v52 : Ref sig .tc := ⟨.hbm, 90, rfl⟩
abbrev main_cst_14 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_15 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_16 : Ref sig .tc := ⟨.hbm, 102, rfl⟩
abbrev main_v62 : Ref sig .tc := ⟨.hbm, 103, rfl⟩
abbrev main_v63 : Ref sig .tc := ⟨.hbm, 104, rfl⟩
abbrev main_c_17 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_18 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_19 : Ref sig .tc := ⟨.hbm, 115, rfl⟩
abbrev main_v72 : Ref sig .tc := ⟨.hbm, 116, rfl⟩
abbrev main_cst_20 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_21 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_c_22 : Ref sig .tc := ⟨.hbm, 128, rfl⟩
abbrev main_v82 : Ref sig .tc := ⟨.hbm, 129, rfl⟩
abbrev main_v83 : Ref sig .tc := ⟨.hbm, 130, rfl⟩
abbrev main_c_23 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_c_24 : Ref sig .tc := ⟨.hbm, 137, rfl⟩
abbrev main_v89 : Ref sig .tc := ⟨.hbm, 138, rfl⟩
abbrev main_v90 : Ref sig .tc := ⟨.hbm, 139, rfl⟩
abbrev main_c_25 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  gather_S100000x128_S500000x1_S500000x128_1_0_n_n_0_1_1128_wf : GatherDims.WF S100000x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S500000x128.size a
  hwx4_0 : ∀ i : grid4.Coords, EltTy.bits .f32 = 32 ∨ (Rect.block (s := S500000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S500000x128.size a
  hwx4_1 : ∀ i : grid4.Coords, EltTy.bits .f32 = 32 ∨ (Rect.block (s := S500000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S500000x1.size a
  hwx4_2 : ∀ i : grid4.Coords, EltTy.bits .f32 = 32 ∨ (Rect.block (s := S500000x1) S5000x1.size (cc4_transform_2 i) (hinb4_2 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v79) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v88) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v96) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S600000 : Shape := ⟨1, ![600000]⟩
abbrev S500000 : Shape := ⟨1, ![500000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S100000x1 : Shape := ⟨2, ![100000, 1]⟩
abbrev S500000x1 : Shape := ⟨2, ![500000, 1]⟩
abbrev S500000x128 : Shape := ⟨2, ![500000, 128]⟩

abbrev nBuf : Space → Nat
  | .hbm => 165
  | .vmem => 0
  | .smem => 0
  | _ => 0

abbrev hbmTy0_0 (i : Nat) : BufTy := match i % 128 with
  | 0 => ⟨S100000x128, .f32⟩
  | 1 => ⟨S50000x128, .f32⟩
  | 2 => ⟨S600000, .i32⟩
  | 3 => ⟨S600000, .i32⟩
  | 4 => ⟨S500000, .i32⟩
  | 5 => ⟨S500000, .i32⟩
  | 6 => ⟨S128x128, .f32⟩
  | 7 => ⟨S128x128, .f32⟩
  | 8 => ⟨S128x128, .f32⟩
  | 9 => ⟨S128x128, .f32⟩
  | 10 => ⟨S128x128, .f32⟩
  | 11 => ⟨S128x128, .f32⟩
  | 12 => ⟨S128x128, .f32⟩
  | 13 => ⟨S128x128, .f32⟩
  | 14 => ⟨S128, .f32⟩
  | 15 => ⟨S128, .f32⟩
  | 16 => ⟨S128, .f32⟩
  | 17 => ⟨S128, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S_, .f32⟩
  | 28 => ⟨S50000x128, .f32⟩
  | 29 => ⟨S600000x1, .i32⟩
  | 30 => ⟨S50000x128, .f32⟩
  | 31 => ⟨S_, .f32⟩
  | 32 => ⟨S600000x1, .f32⟩
  | 33 => ⟨S_, .f32⟩
  | 34 => ⟨S50000x1, .f32⟩
  | 35 => ⟨S600000x1, .i32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S_, .f32⟩
  | 61 => ⟨S100000x128, .f32⟩
  | 62 => ⟨S600000x1, .i32⟩
  | 63 => ⟨S100000x128, .f32⟩
  | 64 => ⟨S_, .f32⟩
  | 65 => ⟨S600000x1, .f32⟩
  | 66 => ⟨S_, .f32⟩
  | 67 => ⟨S100000x1, .f32⟩
  | 68 => ⟨S600000x1, .i32⟩
  | 69 => ⟨S100000x1, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S_, .f32⟩
  | 94 => ⟨S50000x128, .f32⟩
  | 95 => ⟨S600000x1, .i32⟩
  | 96 => ⟨S50000x128, .f32⟩
  | 97 => ⟨S_, .f32⟩
  | 98 => ⟨S600000x1, .f32⟩
  | 99 => ⟨S_, .f32⟩
  | 100 => ⟨S50000x1, .f32⟩
  | 101 => ⟨S600000x1, .i32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S50000x128, .f32⟩
  | 113 => ⟨S50000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S_, .f32⟩
  | 124 => ⟨S100000x128, .f32⟩
  | 125 => ⟨S600000x1, .i32⟩
  | 126 => ⟨S100000x128, .f32⟩
  | 127 => ⟨S_, .f32⟩
  | _ => ⟨S100000x128, .f32⟩

abbrev hbmTy0_1 (i : Nat) : BufTy := match i % 128 with
  | 0 => ⟨S600000x1, .f32⟩
  | 1 => ⟨S_, .f32⟩
  | 2 => ⟨S100000x1, .f32⟩
  | 3 => ⟨S600000x1, .i32⟩
  | 4 => ⟨S100000x1, .f32⟩
  | 5 => ⟨S_, .f32⟩
  | 6 => ⟨S100000x1, .f32⟩
  | 7 => ⟨S100000x1, .f32⟩
  | 8 => ⟨S100000x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S100000x128, .f32⟩
  | 15 => ⟨S100000x128, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x128, .f32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x128, .f32⟩
  | 34 => ⟨S500000x128, .f32⟩
  | 35 => ⟨S_, .f32⟩
  | 36 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call0_cst : Ref sig .tc := ⟨.hbm, 48, rfl⟩
abbrev main_call0_v0 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_7 : Ref sig .tc := ⟨.hbm, 64, rfl⟩
abbrev main_v35 : Ref sig .tc := ⟨.hbm, 65, rfl⟩
abbrev main_cst_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call1_cst : Ref sig .tc := ⟨.hbm, 81, rfl⟩
abbrev main_call1_v0 : Ref sig .tc := ⟨.hbm, 82, rfl⟩
abbrev main_v49 : Ref sig .tc := ⟨.hbm, 83, rfl⟩
abbrev main_c_10 : Ref sig .tc := ⟨.hbm, 84, rfl⟩
abbrev main_v50 : Ref sig .tc := ⟨.hbm, 85, rfl⟩
abbrev main_v51 : Ref sig .tc := ⟨.hbm, 86, rfl⟩
abbrev main_c_11 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_12 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_13 : Ref sig .tc := ⟨.hbm, 97, rfl⟩
abbrev main_v60 : Ref sig .tc := ⟨.hbm, 98, rfl⟩
abbrev main_cst_14 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_15 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_c_16 : Ref sig .tc := ⟨.hbm, 114, rfl⟩
abbrev main_v74 : Ref sig .tc := ⟨.hbm, 115, rfl⟩
abbrev main_v75 : Ref sig .tc := ⟨.hbm, 116, rfl⟩
abbrev main_c_17 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_18 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_19 : Ref sig .tc := ⟨.hbm, 127, rfl⟩
abbrev main_v84 : Ref sig .tc := ⟨.hbm, 128, rfl⟩
abbrev main_cst_20 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_21 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_22 : Ref sig .tc := ⟨.hbm, 144, rfl⟩
abbrev main_v98 : Ref sig .tc := ⟨.hbm, 145, rfl⟩
abbrev main_v99 : Ref sig .tc := ⟨.hbm, 146, rfl⟩
abbrev main_c_23 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_c_24 : Ref sig .tc := ⟨.hbm, 153, rfl⟩
abbrev main_v105 : Ref sig .tc := ⟨.hbm, 154, rfl⟩
abbrev main_v106 : Ref sig .tc := ⟨.hbm, 155, rfl⟩
abbrev main_c_25 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_26 : Ref sig .tc := ⟨.hbm, 163, rfl⟩
abbrev main_v113 : Ref sig .tc := ⟨.hbm, 164, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  reducesTo_S500000x128_S500000_d1 : S500000x128.ReducesTo [1] S500000
  h_S_ : 0 < S_.numel
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf

class Facts : Prop extends Facts₀ where

variable [Facts]
-- ==== Proof.RunValues.lean ====
/- The run of the program's entry function with its result kept.

   From any launch memory m with all counters at zero and any generator registers ρ, every weakly fair execution of
   the entry function on the TensorCores terminates, and in every final state the result buffer (value 97, a vector
   of 500000 single-precision numbers) holds, on each device c, the value that the fold W13 assigns to it. W13 is
   the launch memory pushed through the program's thirteen segments in order: a stretch of host operations acts by
   its functional meaning, and a region leaves in its arrays what its write-backs leave. The eighteen argument
   arrays end as they were launched. -/
import proofs.«157091_j58695023067699_1_alg».proof.Proof.Gen.KernelIdeal.Frame

set_option maxRecDepth 16384

noncomputable section

namespace Cert.KernelIdeal.RunValues

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result kept: the final memory has the result buffer at the fold's value W13 and every argument
    array at its launch contents. The thread state after the last segment holds every unscoped buffer at W13; reading
    that state against the final memory gives the result buffer's equation directly and each argument's through the
    read-back of the fold to the launch memory. -/
theorem run_values : θ_run defs (onTc (τ := τ) (main (F := F))) ⟨m, fun _ => 0, ρ⟩ (fun r => ∀ c : Dev nD,
      r.2.mem ((c.tc : Thread nD τ).loc main_v97) = Gen.W13 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (Gen.mem_uc main_v97 (by decide)),
       (h c _ (Gen.mem_uc main_arg0 (by decide))).trans (Gen.W13_main_arg0 m ρ c),
       (h c _ (Gen.mem_uc main_arg1 (by decide))).trans (Gen.W13_main_arg1 m ρ c),
       (h c _ (Gen.mem_uc main_arg2 (by decide))).trans (Gen.W13_main_arg2 m ρ c),
       (h c _ (Gen.mem_uc main_arg3 (by decide))).trans (Gen.W13_main_arg3 m ρ c),
       (h c _ (Gen.mem_uc main_arg4 (by decide))).trans (Gen.W13_main_arg4 m ρ c),
       (h c _ (Gen.mem_uc main_arg5 (by decide))).trans (Gen.W13_main_arg5 m ρ c),
       (h c _ (Gen.mem_uc main_arg6 (by decide))).trans (Gen.W13_main_arg6 m ρ c),
       (h c _ (Gen.mem_uc main_arg7 (by decide))).trans (Gen.W13_main_arg7 m ρ c),
       (h c _ (Gen.mem_uc main_arg8 (by decide))).trans (Gen.W13_main_arg8 m ρ c),
       (h c _ (Gen.mem_uc main_arg9 (by decide))).trans (Gen.W13_main_arg9 m ρ c),
       (h c _ (Gen.mem_uc main_arg10 (by decide))).trans (Gen.W13_main_arg10 m ρ c),
       (h c _ (Gen.mem_uc main_arg11 (by decide))).trans (Gen.W13_main_arg11 m ρ c),
       (h c _ (Gen.mem_uc main_arg12 (by decide))).trans (Gen.W13_main_arg12 m ρ c),
       (h c _ (Gen.mem_uc main_arg13 (by decide))).trans (Gen.W13_main_arg13 m ρ c),
       (h c _ (Gen.mem_uc main_arg14 (by decide))).trans (Gen.W13_main_arg14 m ρ c),
       (h c _ (Gen.mem_uc main_arg15 (by decide))).trans (Gen.W13_main_arg15 m ρ c),
       (h c _ (Gen.mem_uc main_arg16 (by decide))).trans (Gen.W13_main_arg16 m ρ c),
       (h c _ (Gen.mem_uc main_arg17 (by decide))).trans (Gen.W13_main_arg17 m ρ c)⟩)

end Cert.KernelIdeal.RunValues

end
-- ==== Proof.Boundaries.lean ====
/- Buffers that keep their contents across segments of the entry function.

   The boundary contents W0, W1, ..., W13 are core c's buffers before the first segment, between consecutive
   segments, and after the last: W0 is the launch memory; across a stretch of host operations the next boundary is the
   stretch's functional meaning applied to the previous one; across a region the region's arrays are replaced by what
   its pipeline leaves in them and every other buffer is unchanged.
   Three facts move a buffer's contents back across one segment unchanged:
   - a stretch none of whose operations writes the buffer leaves it as it was;
   - a region of which the buffer is not an array leaves it as it was;
   - a region of which the buffer is an INPUT array leaves it as it was, because the pipeline's final contents of an
     input array are its entry contents.
   Composing them segment by segment gives, for a launch argument, that its contents at a boundary are still the launch
   memory's, and for a value computed on the way, that its contents at a later boundary are those at the boundary
   right after the stretch that computed it. -/
import proofs.«157091_j58695023067699_1_alg».proof.Proof.Gen.KernelIdeal.Frame

set_option maxRecDepth 16384

noncomputable section

namespace Cert.KernelIdeal.Boundaries

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-- A stretch of host operations leaves buffer b as it was when no operation of the stretch writes b: the stretch's
    list is unfolded, each operation's set of written buffers is a singleton, and b differs from each of them. -/
macro "kept_by_host " ops:ident b:term:max : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Launch arguments: still the launch memory's contents at the boundaries where they are read -/

/-! ### main_arg0, up to boundary 4 -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by kept_by_host hostOps0 main_arg0
    _ = m ((c : Thread nD τ).loc main_arg0) := rfl
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = m ((c : Thread nD τ).loc main_arg0) := W1_main_arg0 m ρ c
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by kept_by_host hostOps1 main_arg0
    _ = m ((c : Thread nD τ).loc main_arg0) := W2_main_arg0 m ρ c
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := by kept_by_host hostOps1_1 main_arg0
    _ = m ((c : Thread nD τ).loc main_arg0) := W3_main_arg0 m ρ c

/-! ### main_arg1, up to boundary 3 -/

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by kept_by_host hostOps0 main_arg1
    _ = m ((c : Thread nD τ).loc main_arg1) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat0 (V1 m ρ) c).arrAt_in 1 rfl _).trans (A_eq0 (V1 m ρ) c 1))
    _ = m ((c : Thread nD τ).loc main_arg1) := W1_main_arg1 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by kept_by_host hostOps1 main_arg1
    _ = m ((c : Thread nD τ).loc main_arg1) := W2_main_arg1 m ρ c

/-! ### main_arg2, up to boundary 8 -/

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by kept_by_host hostOps0 main_arg2
    _ = m ((c : Thread nD τ).loc main_arg2) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = m ((c : Thread nD τ).loc main_arg2) := W1_main_arg2 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by kept_by_host hostOps1 main_arg2
    _ = m ((c : Thread nD τ).loc main_arg2) := W2_main_arg2 m ρ c
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := by kept_by_host hostOps1_1 main_arg2
    _ = m ((c : Thread nD τ).loc main_arg2) := W3_main_arg2 m ρ c
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = m ((c : Thread nD τ).loc main_arg2) := W4_main_arg2 m ρ c
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := by kept_by_host hostOps2 main_arg2
    _ = m ((c : Thread nD τ).loc main_arg2) := W5_main_arg2 m ρ c
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := by kept_by_host hostOps2_1 main_arg2
    _ = m ((c : Thread nD τ).loc main_arg2) := W6_main_arg2 m ρ c
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = m ((c : Thread nD τ).loc main_arg2) := W7_main_arg2 m ρ c

/-! ### main_arg3, up to boundary 8 -/

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by kept_by_host hostOps0 main_arg3
    _ = m ((c : Thread nD τ).loc main_arg3) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = m ((c : Thread nD τ).loc main_arg3) := W1_main_arg3 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by kept_by_host hostOps1 main_arg3
    _ = m ((c : Thread nD τ).loc main_arg3) := W2_main_arg3 m ρ c
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := by kept_by_host hostOps1_1 main_arg3
    _ = m ((c : Thread nD τ).loc main_arg3) := W3_main_arg3 m ρ c
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = m ((c : Thread nD τ).loc main_arg3) := W4_main_arg3 m ρ c
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := by kept_by_host hostOps2 main_arg3
    _ = m ((c : Thread nD τ).loc main_arg3) := W5_main_arg3 m ρ c
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := by kept_by_host hostOps2_1 main_arg3
    _ = m ((c : Thread nD τ).loc main_arg3) := W6_main_arg3 m ρ c
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = m ((c : Thread nD τ).loc main_arg3) := W7_main_arg3 m ρ c

/-! ### main_arg4, up to boundary 10 -/

theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by kept_by_host hostOps0 main_arg4
    _ = m ((c : Thread nD τ).loc main_arg4) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = m ((c : Thread nD τ).loc main_arg4) := W1_main_arg4 m ρ c
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by kept_by_host hostOps1 main_arg4
    _ = m ((c : Thread nD τ).loc main_arg4) := W2_main_arg4 m ρ c
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by kept_by_host hostOps1_1 main_arg4
    _ = m ((c : Thread nD τ).loc main_arg4) := W3_main_arg4 m ρ c
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = m ((c : Thread nD τ).loc main_arg4) := W4_main_arg4 m ρ c
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := by kept_by_host hostOps2 main_arg4
    _ = m ((c : Thread nD τ).loc main_arg4) := W5_main_arg4 m ρ c
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := by kept_by_host hostOps2_1 main_arg4
    _ = m ((c : Thread nD τ).loc main_arg4) := W6_main_arg4 m ρ c
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = m ((c : Thread nD τ).loc main_arg4) := W7_main_arg4 m ρ c
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := by kept_by_host hostOps3 main_arg4
    _ = m ((c : Thread nD τ).loc main_arg4) := W8_main_arg4 m ρ c
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = m ((c : Thread nD τ).loc main_arg4) := W9_main_arg4 m ρ c

/-! ### main_arg5, up to boundary 10 -/

theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by kept_by_host hostOps0 main_arg5
    _ = m ((c : Thread nD τ).loc main_arg5) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = m ((c : Thread nD τ).loc main_arg5) := W1_main_arg5 m ρ c
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by kept_by_host hostOps1 main_arg5
    _ = m ((c : Thread nD τ).loc main_arg5) := W2_main_arg5 m ρ c
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by kept_by_host hostOps1_1 main_arg5
    _ = m ((c : Thread nD τ).loc main_arg5) := W3_main_arg5 m ρ c
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = m ((c : Thread nD τ).loc main_arg5) := W4_main_arg5 m ρ c
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := by kept_by_host hostOps2 main_arg5
    _ = m ((c : Thread nD τ).loc main_arg5) := W5_main_arg5 m ρ c
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := by kept_by_host hostOps2_1 main_arg5
    _ = m ((c : Thread nD τ).loc main_arg5) := W6_main_arg5 m ρ c
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = m ((c : Thread nD τ).loc main_arg5) := W7_main_arg5 m ρ c
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := by kept_by_host hostOps3 main_arg5
    _ = m ((c : Thread nD τ).loc main_arg5) := W8_main_arg5 m ρ c
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = m ((c : Thread nD τ).loc main_arg5) := W9_main_arg5 m ρ c

/-! ### main_arg6, up to boundary 1 -/

theorem W1_main_arg6 (c : Dev nD) : W1 m ρ c (Proc.devRef .tc main_arg6) = m ((c : Thread nD τ).loc main_arg6) :=
  calc W1 m ρ c (Proc.devRef .tc main_arg6)
    _ = W0 m ρ c (Proc.devRef .tc main_arg6) := by kept_by_host hostOps0 main_arg6
    _ = m ((c : Thread nD τ).loc main_arg6) := rfl

/-! ### main_arg7, up to boundary 1 -/

theorem W1_main_arg7 (c : Dev nD) : W1 m ρ c (Proc.devRef .tc main_arg7) = m ((c : Thread nD τ).loc main_arg7) :=
  calc W1 m ρ c (Proc.devRef .tc main_arg7)
    _ = W0 m ρ c (Proc.devRef .tc main_arg7) := by kept_by_host hostOps0 main_arg7
    _ = m ((c : Thread nD τ).loc main_arg7) := rfl

/-! ### main_arg8, up to boundary 4 -/

theorem W1_main_arg8 (c : Dev nD) : W1 m ρ c (Proc.devRef .tc main_arg8) = m ((c : Thread nD τ).loc main_arg8) :=
  calc W1 m ρ c (Proc.devRef .tc main_arg8)
    _ = W0 m ρ c (Proc.devRef .tc main_arg8) := by kept_by_host hostOps0 main_arg8
    _ = m ((c : Thread nD τ).loc main_arg8) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = m ((c : Thread nD τ).loc main_arg8) := W1_main_arg8 m ρ c
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by kept_by_host hostOps1 main_arg8
    _ = m ((c : Thread nD τ).loc main_arg8) := W2_main_arg8 m ρ c
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := by kept_by_host hostOps1_1 main_arg8
    _ = m ((c : Thread nD τ).loc main_arg8) := W3_main_arg8 m ρ c

/-! ### main_arg9, up to boundary 4 -/

theorem W1_main_arg9 (c : Dev nD) : W1 m ρ c (Proc.devRef .tc main_arg9) = m ((c : Thread nD τ).loc main_arg9) :=
  calc W1 m ρ c (Proc.devRef .tc main_arg9)
    _ = W0 m ρ c (Proc.devRef .tc main_arg9) := by kept_by_host hostOps0 main_arg9
    _ = m ((c : Thread nD τ).loc main_arg9) := rfl
theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = m ((c : Thread nD τ).loc main_arg9) := W1_main_arg9 m ρ c
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := by kept_by_host hostOps1 main_arg9
    _ = m ((c : Thread nD τ).loc main_arg9) := W2_main_arg9 m ρ c
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := by kept_by_host hostOps1_1 main_arg9
    _ = m ((c : Thread nD τ).loc main_arg9) := W3_main_arg9 m ρ c

/-! ### main_arg10, up to boundary 7 -/

theorem W1_main_arg10 (c : Dev nD) : W1 m ρ c (Proc.devRef .tc main_arg10) = m ((c : Thread nD τ).loc main_arg10) :=
  calc W1 m ρ c (Proc.devRef .tc main_arg10)
    _ = W0 m ρ c (Proc.devRef .tc main_arg10) := by kept_by_host hostOps0 main_arg10
    _ = m ((c : Thread nD τ).loc main_arg10) := rfl
theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = m ((c : Thread nD τ).loc main_arg10) := W1_main_arg10 m ρ c
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := by kept_by_host hostOps1 main_arg10
    _ = m ((c : Thread nD τ).loc main_arg10) := W2_main_arg10 m ρ c
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := by kept_by_host hostOps1_1 main_arg10
    _ = m ((c : Thread nD τ).loc main_arg10) := W3_main_arg10 m ρ c
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = m ((c : Thread nD τ).loc main_arg10) := W4_main_arg10 m ρ c
theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := by kept_by_host hostOps2 main_arg10
    _ = m ((c : Thread nD τ).loc main_arg10) := W5_main_arg10 m ρ c
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := by kept_by_host hostOps2_1 main_arg10
    _ = m ((c : Thread nD τ).loc main_arg10) := W6_main_arg10 m ρ c

/-! ### main_arg11, up to boundary 7 -/

theorem W1_main_arg11 (c : Dev nD) : W1 m ρ c (Proc.devRef .tc main_arg11) = m ((c : Thread nD τ).loc main_arg11) :=
  calc W1 m ρ c (Proc.devRef .tc main_arg11)
    _ = W0 m ρ c (Proc.devRef .tc main_arg11) := by kept_by_host hostOps0 main_arg11
    _ = m ((c : Thread nD τ).loc main_arg11) := rfl
theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = m ((c : Thread nD τ).loc main_arg11) := W1_main_arg11 m ρ c
theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := by kept_by_host hostOps1 main_arg11
    _ = m ((c : Thread nD τ).loc main_arg11) := W2_main_arg11 m ρ c
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := by kept_by_host hostOps1_1 main_arg11
    _ = m ((c : Thread nD τ).loc main_arg11) := W3_main_arg11 m ρ c
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = m ((c : Thread nD τ).loc main_arg11) := W4_main_arg11 m ρ c
theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := by kept_by_host hostOps2 main_arg11
    _ = m ((c : Thread nD τ).loc main_arg11) := W5_main_arg11 m ρ c
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := by kept_by_host hostOps2_1 main_arg11
    _ = m ((c : Thread nD τ).loc main_arg11) := W6_main_arg11 m ρ c

/-! ### main_arg12, up to boundary 9 -/

theorem W1_main_arg12 (c : Dev nD) : W1 m ρ c (Proc.devRef .tc main_arg12) = m ((c : Thread nD τ).loc main_arg12) :=
  calc W1 m ρ c (Proc.devRef .tc main_arg12)
    _ = W0 m ρ c (Proc.devRef .tc main_arg12) := by kept_by_host hostOps0 main_arg12
    _ = m ((c : Thread nD τ).loc main_arg12) := rfl
theorem W2_main_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = m ((c : Thread nD τ).loc main_arg12) := W1_main_arg12 m ρ c
theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := by kept_by_host hostOps1 main_arg12
    _ = m ((c : Thread nD τ).loc main_arg12) := W2_main_arg12 m ρ c
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := by kept_by_host hostOps1_1 main_arg12
    _ = m ((c : Thread nD τ).loc main_arg12) := W3_main_arg12 m ρ c
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = m ((c : Thread nD τ).loc main_arg12) := W4_main_arg12 m ρ c
theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := by kept_by_host hostOps2 main_arg12
    _ = m ((c : Thread nD τ).loc main_arg12) := W5_main_arg12 m ρ c
theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := by kept_by_host hostOps2_1 main_arg12
    _ = m ((c : Thread nD τ).loc main_arg12) := W6_main_arg12 m ρ c
theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = m ((c : Thread nD τ).loc main_arg12) := W7_main_arg12 m ρ c
theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := by kept_by_host hostOps3 main_arg12
    _ = m ((c : Thread nD τ).loc main_arg12) := W8_main_arg12 m ρ c

/-! ### main_arg13, up to boundary 9 -/

theorem W1_main_arg13 (c : Dev nD) : W1 m ρ c (Proc.devRef .tc main_arg13) = m ((c : Thread nD τ).loc main_arg13) :=
  calc W1 m ρ c (Proc.devRef .tc main_arg13)
    _ = W0 m ρ c (Proc.devRef .tc main_arg13) := by kept_by_host hostOps0 main_arg13
    _ = m ((c : Thread nD τ).loc main_arg13) := rfl
theorem W2_main_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = m ((c : Thread nD τ).loc main_arg13) := W1_main_arg13 m ρ c
theorem W3_main_arg13 (c : Dev nD) : W3 m ρ c (Proc.devRef .tc main_arg13) = m ((c : Thread nD τ).loc main_arg13) :=
  calc W3 m ρ c (Proc.devRef .tc main_arg13)
    _ = W2 m ρ c (Proc.devRef .tc main_arg13) := by kept_by_host hostOps1 main_arg13
    _ = m ((c : Thread nD τ).loc main_arg13) := W2_main_arg13 m ρ c
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := by kept_by_host hostOps1_1 main_arg13
    _ = m ((c : Thread nD τ).loc main_arg13) := W3_main_arg13 m ρ c
theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := W5_of_ne m ρ c main_arg13 (by decide)
    _ = m ((c : Thread nD τ).loc main_arg13) := W4_main_arg13 m ρ c
theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := by kept_by_host hostOps2 main_arg13
    _ = m ((c : Thread nD τ).loc main_arg13) := W5_main_arg13 m ρ c
theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := by kept_by_host hostOps2_1 main_arg13
    _ = m ((c : Thread nD τ).loc main_arg13) := W6_main_arg13 m ρ c
theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = m ((c : Thread nD τ).loc main_arg13) := W7_main_arg13 m ρ c
theorem W9_main_arg13 (c : Dev nD) : W9 m ρ c (Proc.devRef .tc main_arg13) = m ((c : Thread nD τ).loc main_arg13) :=
  calc W9 m ρ c (Proc.devRef .tc main_arg13)
    _ = W8 m ρ c (Proc.devRef .tc main_arg13) := by kept_by_host hostOps3 main_arg13
    _ = m ((c : Thread nD τ).loc main_arg13) := W8_main_arg13 m ρ c

/-! ### main_arg15, up to boundary 3 -/

theorem W1_main_arg15 (c : Dev nD) : W1 m ρ c (Proc.devRef .tc main_arg15) = m ((c : Thread nD τ).loc main_arg15) :=
  calc W1 m ρ c (Proc.devRef .tc main_arg15)
    _ = W0 m ρ c (Proc.devRef .tc main_arg15) := by kept_by_host hostOps0 main_arg15
    _ = m ((c : Thread nD τ).loc main_arg15) := rfl
theorem W2_main_arg15 (c : Dev nD) : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = m ((c : Thread nD τ).loc main_arg15) := W1_main_arg15 m ρ c
theorem W3_main_arg15 (c : Dev nD) : W3 m ρ c (Proc.devRef .tc main_arg15) = m ((c : Thread nD τ).loc main_arg15) :=
  calc W3 m ρ c (Proc.devRef .tc main_arg15)
    _ = W2 m ρ c (Proc.devRef .tc main_arg15) := by kept_by_host hostOps1 main_arg15
    _ = m ((c : Thread nD τ).loc main_arg15) := W2_main_arg15 m ρ c

/-! ### main_arg16, up to boundary 6 -/

theorem W1_main_arg16 (c : Dev nD) : W1 m ρ c (Proc.devRef .tc main_arg16) = m ((c : Thread nD τ).loc main_arg16) :=
  calc W1 m ρ c (Proc.devRef .tc main_arg16)
    _ = W0 m ρ c (Proc.devRef .tc main_arg16) := by kept_by_host hostOps0 main_arg16
    _ = m ((c : Thread nD τ).loc main_arg16) := rfl
theorem W2_main_arg16 (c : Dev nD) : W2 m ρ c (Proc.devRef .tc main_arg16) = m ((c : Thread nD τ).loc main_arg16) :=
  calc W2 m ρ c (Proc.devRef .tc main_arg16)
    _ = W1 m ρ c (Proc.devRef .tc main_arg16) := W2_of_ne m ρ c main_arg16 (by decide)
    _ = m ((c : Thread nD τ).loc main_arg16) := W1_main_arg16 m ρ c
theorem W3_main_arg16 (c : Dev nD) : W3 m ρ c (Proc.devRef .tc main_arg16) = m ((c : Thread nD τ).loc main_arg16) :=
  calc W3 m ρ c (Proc.devRef .tc main_arg16)
    _ = W2 m ρ c (Proc.devRef .tc main_arg16) := by kept_by_host hostOps1 main_arg16
    _ = m ((c : Thread nD τ).loc main_arg16) := W2_main_arg16 m ρ c
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := by kept_by_host hostOps1_1 main_arg16
    _ = m ((c : Thread nD τ).loc main_arg16) := W3_main_arg16 m ρ c
theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := W5_of_ne m ρ c main_arg16 (by decide)
    _ = m ((c : Thread nD τ).loc main_arg16) := W4_main_arg16 m ρ c
theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := by kept_by_host hostOps2 main_arg16
    _ = m ((c : Thread nD τ).loc main_arg16) := W5_main_arg16 m ρ c

/-! ### main_arg17, up to boundary 8 -/

theorem W1_main_arg17 (c : Dev nD) : W1 m ρ c (Proc.devRef .tc main_arg17) = m ((c : Thread nD τ).loc main_arg17) :=
  calc W1 m ρ c (Proc.devRef .tc main_arg17)
    _ = W0 m ρ c (Proc.devRef .tc main_arg17) := by kept_by_host hostOps0 main_arg17
    _ = m ((c : Thread nD τ).loc main_arg17) := rfl
theorem W2_main_arg17 (c : Dev nD) : W2 m ρ c (Proc.devRef .tc main_arg17) = m ((c : Thread nD τ).loc main_arg17) :=
  calc W2 m ρ c (Proc.devRef .tc main_arg17)
    _ = W1 m ρ c (Proc.devRef .tc main_arg17) := W2_of_ne m ρ c main_arg17 (by decide)
    _ = m ((c : Thread nD τ).loc main_arg17) := W1_main_arg17 m ρ c
theorem W3_main_arg17 (c : Dev nD) : W3 m ρ c (Proc.devRef .tc main_arg17) = m ((c : Thread nD τ).loc main_arg17) :=
  calc W3 m ρ c (Proc.devRef .tc main_arg17)
    _ = W2 m ρ c (Proc.devRef .tc main_arg17) := by kept_by_host hostOps1 main_arg17
    _ = m ((c : Thread nD τ).loc main_arg17) := W2_main_arg17 m ρ c
theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := by kept_by_host hostOps1_1 main_arg17
    _ = m ((c : Thread nD τ).loc main_arg17) := W3_main_arg17 m ρ c
theorem W5_main_arg17 (c : Dev nD) : W5 m ρ c (Proc.devRef .tc main_arg17) = m ((c : Thread nD τ).loc main_arg17) :=
  calc W5 m ρ c (Proc.devRef .tc main_arg17)
    _ = W4 m ρ c (Proc.devRef .tc main_arg17) := W5_of_ne m ρ c main_arg17 (by decide)
    _ = m ((c : Thread nD τ).loc main_arg17) := W4_main_arg17 m ρ c
theorem W6_main_arg17 (c : Dev nD) : W6 m ρ c (Proc.devRef .tc main_arg17) = m ((c : Thread nD τ).loc main_arg17) :=
  calc W6 m ρ c (Proc.devRef .tc main_arg17)
    _ = W5 m ρ c (Proc.devRef .tc main_arg17) := by kept_by_host hostOps2 main_arg17
    _ = m ((c : Thread nD τ).loc main_arg17) := W5_main_arg17 m ρ c
theorem W7_main_arg17 (c : Dev nD) : W7 m ρ c (Proc.devRef .tc main_arg17) = m ((c : Thread nD τ).loc main_arg17) :=
  calc W7 m ρ c (Proc.devRef .tc main_arg17)
    _ = W6 m ρ c (Proc.devRef .tc main_arg17) := by kept_by_host hostOps2_1 main_arg17
    _ = m ((c : Thread nD τ).loc main_arg17) := W6_main_arg17 m ρ c
theorem W8_main_arg17 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = m ((c : Thread nD τ).loc main_arg17) := W7_main_arg17 m ρ c

/-! ## Values computed on the way: unchanged from the boundary after their computation to where they are read -/

/-! ### value 20: written in the stretch before boundary 3, read by region 2 as its input window 1 -/

theorem W4_main_v20 (c : Dev nD) : W4 m ρ c (Proc.devRef .tc main_v20) = W3 m ρ c (Proc.devRef .tc main_v20) :=
  calc W4 m ρ c (Proc.devRef .tc main_v20)
    _ = W3 m ρ c (Proc.devRef .tc main_v20) := by kept_by_host hostOps1_1 main_v20
    _ = W3 m ρ c (Proc.devRef .tc main_v20) := rfl
theorem W5_main_v20 (c : Dev nD) : W5 m ρ c (Proc.devRef .tc main_v20) = W3 m ρ c (Proc.devRef .tc main_v20) :=
  calc W5 m ρ c (Proc.devRef .tc main_v20)
    _ = W4 m ρ c (Proc.devRef .tc main_v20) := W5_of_ne m ρ c main_v20 (by decide)
    _ = W3 m ρ c (Proc.devRef .tc main_v20) := W4_main_v20 m ρ c
theorem W6_main_v20 (c : Dev nD) : W6 m ρ c (Proc.devRef .tc main_v20) = W3 m ρ c (Proc.devRef .tc main_v20) :=
  calc W6 m ρ c (Proc.devRef .tc main_v20)
    _ = W5 m ρ c (Proc.devRef .tc main_v20) := by kept_by_host hostOps2 main_v20
    _ = W3 m ρ c (Proc.devRef .tc main_v20) := W5_main_v20 m ρ c
theorem W7_main_v20 (c : Dev nD) : W7 m ρ c (Proc.devRef .tc main_v20) = W3 m ρ c (Proc.devRef .tc main_v20) :=
  calc W7 m ρ c (Proc.devRef .tc main_v20)
    _ = W6 m ρ c (Proc.devRef .tc main_v20) := by kept_by_host hostOps2_1 main_v20
    _ = W3 m ρ c (Proc.devRef .tc main_v20) := W6_main_v20 m ρ c
theorem W8_main_v20 (c : Dev nD) : W8 m ρ c (Proc.devRef .tc main_v20) = W3 m ρ c (Proc.devRef .tc main_v20) :=
  calc W8 m ρ c (Proc.devRef .tc main_v20)
    _ = W7 m ρ c (Proc.devRef .tc main_v20) := (W8_arr m ρ c 1).trans (((dat2 (V7 m ρ) c).arrAt_in 1 rfl _).trans (A_eq2 (V7 m ρ) c 1))
    _ = W3 m ρ c (Proc.devRef .tc main_v20) := W7_main_v20 m ρ c

/-! ### value 41: written in the stretch before boundary 6, read by region 3 as its input window 1 -/

theorem W7_main_v41 (c : Dev nD) : W7 m ρ c (Proc.devRef .tc main_v41) = W6 m ρ c (Proc.devRef .tc main_v41) :=
  calc W7 m ρ c (Proc.devRef .tc main_v41)
    _ = W6 m ρ c (Proc.devRef .tc main_v41) := by kept_by_host hostOps2_1 main_v41
    _ = W6 m ρ c (Proc.devRef .tc main_v41) := rfl
theorem W8_main_v41 (c : Dev nD) : W8 m ρ c (Proc.devRef .tc main_v41) = W6 m ρ c (Proc.devRef .tc main_v41) :=
  calc W8 m ρ c (Proc.devRef .tc main_v41)
    _ = W7 m ρ c (Proc.devRef .tc main_v41) := W8_of_ne m ρ c main_v41 (by decide)
    _ = W6 m ρ c (Proc.devRef .tc main_v41) := W7_main_v41 m ρ c
theorem W9_main_v41 (c : Dev nD) : W9 m ρ c (Proc.devRef .tc main_v41) = W6 m ρ c (Proc.devRef .tc main_v41) :=
  calc W9 m ρ c (Proc.devRef .tc main_v41)
    _ = W8 m ρ c (Proc.devRef .tc main_v41) := by kept_by_host hostOps3 main_v41
    _ = W6 m ρ c (Proc.devRef .tc main_v41) := W8_main_v41 m ρ c

/-! ### value 61: region 2's output array, untouched by the next stretch and by region 3 -/

theorem W9_main_v61 (c : Dev nD) : W9 m ρ c (Proc.devRef .tc main_v61) = W8 m ρ c (Proc.devRef .tc main_v61) :=
  calc W9 m ρ c (Proc.devRef .tc main_v61)
    _ = W8 m ρ c (Proc.devRef .tc main_v61) := by kept_by_host hostOps3 main_v61
    _ = W8 m ρ c (Proc.devRef .tc main_v61) := rfl
theorem W10_main_v61 (c : Dev nD) : W10 m ρ c (Proc.devRef .tc main_v61) = W8 m ρ c (Proc.devRef .tc main_v61) :=
  calc W10 m ρ c (Proc.devRef .tc main_v61)
    _ = W9 m ρ c (Proc.devRef .tc main_v61) := W10_of_ne m ρ c main_v61 (by decide)
    _ = W8 m ρ c (Proc.devRef .tc main_v61) := W9_main_v61 m ρ c

end Cert.KernelIdeal.Boundaries

end
-- ==== Proof.SageSpec.lean ====
/-
  The two whole-array functions the program is built from, on the extended reals.

  A node update takes the aggregated neighbour features `agg` and the node features `x` (both n × 128), two
  128 × 128 weight matrices and a bias vector, and gives at row `r`, column `q`
      (Σ_k agg[r,k]·Wl[k,q]  +  Σ_k x[r,k]·Wr[k,q])  +  b[q],
  cut below at zero when `cut` is set.  An edge score takes two E × 128 arrays of gathered endpoint features and
  gives at edge `e` the dot product Σ_k a[e,k]·b[e,k].
-/
import Idealize.ShloMosaic.PureOps.Ideal
import Idealize.ShloMosaic.Lib.ValueIdx

noncomputable section

namespace Cert.Sage.Spec

open Idealize.ShloMosaic Idealize.ShloMosaic.ValueIdx

/-- The linear part of a node update at one entry. -/
def linear {n : Nat} (agg x : (⟨2, ![n, 128]⟩ : Shape).Idx → EReal) (wl wr : (⟨2, ![128, 128]⟩ : Shape).Idx → EReal)
    (b : Fin 128 → EReal) (r : Fin n) (q : Fin 128) : EReal :=
  ((∑ k : Fin 128, agg (ix2 r k) * wl (ix2 k q)) + (∑ k : Fin 128, x (ix2 r k) * wr (ix2 k q))) + b q

/-- A node update as one function of whole arrays. -/
def update {n : Nat} (cut : Bool) (agg x : (⟨2, ![n, 128]⟩ : Shape).Idx → EReal) (wl wr : (⟨2, ![128, 128]⟩ : Shape).Idx → EReal)
    (b : Fin 128 → EReal) : (⟨2, ![n, 128]⟩ : Shape).Idx → EReal := fun i =>
  if cut then max (linear agg x wl wr b ⟨(i 0).val, (i 0).isLt⟩ ⟨(i 1).val, (i 1).isLt⟩) 0
  else linear agg x wl wr b ⟨(i 0).val, (i 0).isLt⟩ ⟨(i 1).val, (i 1).isLt⟩

/-- The score of every edge: the dot product of its two endpoints' feature rows. -/
def edgeScore {e : Nat} (a b : (⟨2, ![e, 128]⟩ : Shape).Idx → EReal) : (⟨1, ![e]⟩ : Shape).Idx → EReal := fun i =>
  ∑ k : Fin 128, a (ix2 (⟨(i 0).val, (i 0).isLt⟩ : Fin e) k) * b (ix2 (⟨(i 0).val, (i 0).isLt⟩ : Fin e) k)

end Cert.Sage.Spec

end
-- ==== Proof.DotReduceRegion.lean ====
import proofs.«157091_j58695023067699_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

/-!
# Region 4: the row-wise dot product

Each of the 100 grid points takes rows `5000 t … 5000 t + 4999` of two `[500000, 128]` arrays, multiplies them entry
by entry, sums each row over its 128 lanes and writes the 5000 sums to the same rows of a `[500000, 1]` array. Read at
the extended reals, with the two operand arrays as the region finds them, the result array therefore ends holding, at
row `r`, the sum over `k < 128` of `a[r, k] * b[r, k]` (`final4`). The steps: the body's arithmetic at one index of a
block (`pay_apply`), an operand block read at an index as the array at the shifted row (`iblk0_apply`, `iblk1_apply`),
what one point writes back as its block of the whole-array function `rowDots` (`flushed_eq`), and the blocks cover the
array because row `r` lies in block `r / 5000` (`mem_blk`, `covered`).
-/

noncomputable section

open Idealize.ShloMosaic Idealize.ShloMosaic.TcCoe Idealize.SL.Sem
open Idealize.ShloMosaic.Pipeline (Dat)
open Idealize.ShloMosaic.ValueIdx
open scoped BigOperators

namespace Cert.KernelIdeal.DotReduce

open Cert.KernelIdeal Cert.KernelIdeal.Gen

/-- Row `r` of the body's result is the dot product of rows `r` of its two operand blocks. -/
theorem pay_apply (x0 x1 : Vec Ideal S5000x128 .f32) (j : S5000x1.Idx) :
    k4_pay1 (F := Ideal) x0 x1 j
      = ∑ k : Fin 128, x0 (ix2 ⟨(j 0).val, idx2_lt0 j⟩ k) * x1 (ix2 ⟨(j 0).val, idx2_lt0 j⟩ k) := by
  unfold k4_pay1
  dsimp only
  rw [shapeCast_self, shapeCast_self]
  refine (shapeCast_apply _ _ j (ix1 (n := 5000) ⟨(j 0).val, idx2_lt0 j⟩) ?_).trans ?_
  · rw [Shape.rowMajor_val_one, Shape.rowMajor_val_two]
    have h1 : (j 1).val < 1 := idx2_lt1 j
    show (j 0).val = (j 0).val * 1 + (j 1).val
    omega
  refine (Ideal.multiReduction_add_single _ _ reduces_S5000x128_S5000 (.inl rfl) rfl _).trans ?_
  refine Finset.sum_congr rfl fun k _ => ?_
  have e : reduces_S5000x128_S5000.lift (ix1 (n := 5000) ⟨(j 0).val, idx2_lt0 j⟩) k
      = ix2 ⟨(j 0).val, idx2_lt0 j⟩ k := by
    funext a; apply Fin.ext
    match a with
    | ⟨0, _⟩ => rfl
    | ⟨1, _⟩ => rfl
  rw [mulf_apply]
  exact congrArg₂ (· * ·) (congrArg x0 e) (congrArg x1 e)

theorem hz : (![0, 0] : Fin 2 → Nat) = fun _ => 0 := funext fun a => by fin_cases a <;> rfl

/-- The three index maps, decided over the grid: at point `t` every window's block index is `(t, 0)`. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- The whole result array as one function of the two operand arrays: row `r` is the dot product of their rows `r`. -/
abbrev rowDots (a0 a1 : S500000x128.Idx → EReal) : S500000x1.Idx → EReal :=
  fun i => ∑ k : Fin 128, a0 (ix2 ⟨(i 0).val, idx2_lt0 i⟩ k) * a1 (ix2 ⟨(i 0).val, idx2_lt0 i⟩ k)

/-- Window 0's block at point `t`, read at `(r, k)`, is the first operand array at row `5000 t + r`. -/
theorem iblk0_apply (c : Dev nD) (t : Fin cfg4.N) (x : S5000x128.Idx) (i : S500000x128.Idx)
    (h0 : (i 0).val = 5000 * t.val + (x 0).val) (h1 : (i 1).val = (x 1).val) :
    (iblk4 V c 0 t : Vec Ideal S5000x128 .f32) x = (V c (Pipeline.arrRef spec4 0) : S500000x128.Idx → EReal) i := by
  obtain ⟨e0, e1, -, -, -, -⟩ := idx_facts t
  unfold iblk4
  rw [View.read_apply]
  show (V c (Pipeline.arrRef spec4 0) : S500000x128.Idx → EReal) (((cfg4.win 0).blk t).view.emb x) = _
  congr 1
  funext a
  apply Fin.ext
  match a with
  | ⟨0, _⟩ => show win4_0.index t 0 * 5000 + 1 * (x 0).val = (i 0).val; rw [e0, h0]; omega
  | ⟨1, _⟩ => show win4_0.index t 1 * 128 + 1 * (x 1).val = (i 1).val; rw [e1, h1]; omega

/-- Window 1's block at point `t`, read at `(r, k)`, is the second operand array at row `5000 t + r`. -/
theorem iblk1_apply (c : Dev nD) (t : Fin cfg4.N) (x : S5000x128.Idx) (i : S500000x128.Idx)
    (h0 : (i 0).val = 5000 * t.val + (x 0).val) (h1 : (i 1).val = (x 1).val) :
    (iblk4 V c 1 t : Vec Ideal S5000x128 .f32) x = (V c (Pipeline.arrRef spec4 1) : S500000x128.Idx → EReal) i := by
  obtain ⟨-, -, e0, e1, -, -⟩ := idx_facts t
  unfold iblk4
  rw [View.read_apply]
  show (V c (Pipeline.arrRef spec4 1) : S500000x128.Idx → EReal) (((cfg4.win 1).blk t).view.emb x) = _
  congr 1
  funext a
  apply Fin.ext
  match a with
  | ⟨0, _⟩ => show win4_1.index t 0 * 5000 + 1 * (x 0).val = (i 0).val; rw [e0, h0]; omega
  | ⟨1, _⟩ => show win4_1.index t 1 * 128 + 1 * (x 1).val = (i 1).val; rw [e1, h1]; omega

/-- What point `t` writes back is block `t` of `rowDots` of the two operand arrays as the region finds them. -/
theorem flushed_eq (c : Dev nD) (t : Fin cfg4.N) :
    (dat4 (F := Ideal) V c).flushed 2 t
      = ((cfg4.win 2).blk t).view.read (Elt Ideal) (rowDots (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S5000x128) hz]
  funext j
  show k4_pay1 (iblk4 V c 0 t) (iblk4 V c 1 t) ((win4 2).xinj (grid4.coords t) j)
    = rowDots (V c (Pipeline.arrRef spec4 0)) (V c (Pipeline.arrRef spec4 1)) (((cfg4.win 2).blk t).view.emb j)
  refine (pay_apply _ _ _).trans ?_
  refine Finset.sum_congr rfl fun k _ => ?_
  obtain ⟨-, -, -, -, e0, -⟩ := idx_facts t
  have hr : ((((cfg4.win 2).blk t).view.emb j) 0).val = 5000 * t.val + (j 0).val := by
    show win4_2.index t 0 * 5000 + 1 * (j 0).val = _
    rw [e0]; omega
  exact congrArg₂ (· * ·) (iblk0_apply V c t _ _ hr rfl) (iblk1_apply V c t _ _ hr rfl)

/-- An index of the result array is in point `t`'s block iff each coordinate is in the block's range on its axis. -/
theorem mem_blk (t : Fin cfg4.N) (i : S500000x1.Idx) :
    i ∈ ((cfg4.win 2).blk t).view.set ↔ ∀ a : Fin 2, win4_2.index t a * S5000x1.size a ≤ (i a).val
      ∧ (i a).val < win4_2.index t a * S5000x1.size a + S5000x1.size a := by
  show i ∈ ((View.whole main_v96).slice (win4_2.rect t)).set ↔ _
  rw [View.set_slice_whole, Rect.mem_set_unit]
  exact Iff.rfl

/-- Every row of the result array is written by some point: row `r` by point `r / 5000`. -/
theorem covered (i : S500000x1.Idx) :
    ∃ t : Fin cfg4.N, (cfg4.win 2).flush t = true ∧ i ∈ ((cfg4.win 2).blk t).view.set := by
  have hi0 : (i 0).val < 500000 := idx2_lt0 i
  have hi1 : (i 1).val < 1 := idx2_lt1 i
  have hN : cfg4.N = 100 := N_4
  obtain ⟨t, ht⟩ : ∃ t : Fin cfg4.N, t.val = (i 0).val / 5000 := ⟨⟨(i 0).val / 5000, by omega⟩, rfl⟩
  obtain ⟨-, -, -, -, e0, e1⟩ := idx_facts t
  refine ⟨t, flush4_2 t, ?_⟩
  rw [mem_blk]
  intro a
  match a with
  | ⟨0, _⟩ =>
    show win4_2.index t 0 * 5000 ≤ (i 0).val ∧ (i 0).val < win4_2.index t 0 * 5000 + 5000
    rw [e0, ht]; omega
  | ⟨1, _⟩ =>
    show win4_2.index t 1 * 1 ≤ (i 1).val ∧ (i 1).val < win4_2.index t 1 * 1 + 1
    rw [e1]; omega

/-- `rowDots` at an index, spelled out. -/
theorem rowDots_apply (a0 a1 : S500000x128.Idx → EReal) (i : S500000x1.Idx) :
    rowDots a0 a1 i = ∑ k : Fin 128, a0 (ix2 ⟨(i 0).val, idx2_lt0 i⟩ k) * a1 (ix2 ⟨(i 0).val, idx2_lt0 i⟩ k) := rfl

/-- The result array after the region: row `r` holds the dot product of rows `r` of the two operand arrays as the
    region finds them. -/
theorem final4 (c : Dev nD) :
    (dat4 (F := Ideal) V c).arrAt 2 cfg4.N
      = rowDots (V c (Pipeline.arrRef spec4 0)) (V c (Pipeline.arrRef spec4 1)) :=
  (dat4 V c).arrAt_eq_of_cover 2 (rowDots (V c (Pipeline.arrRef spec4 0)) (V c (Pipeline.arrRef spec4 1)))
    (fun t _ => flushed_eq V c t) covered

end Cert.KernelIdeal.DotReduce

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.SagePayload.lean ====
/-
  The arithmetic of one block of the four node-update kernels, read at one entry.

  Each of the four kernels takes a block of 5000 rows of the aggregated neighbour features `x0`, the same
  rows of the node's own features `x1`, two 128 × 128 weight matrices `w0`, `w1` and a bias row `b`, and
  stores, at row `p` and column `q`,
      (Σ_k x0[p,k]·w0[k,q]  +  Σ_k x1[p,k]·w1[k,q])  +  b[0,q]
  (the first-layer kernels then take the maximum with zero).  On the extended reals the narrowing of the
  matrix operands to a shorter format is the identity and a matrix product into a zero accumulator is the
  plain sum of products, so this is all the body computes.
-/
import proofs.«157091_j58695023067699_1_alg».proof.Proof.Gen.KernelIdeal.Skeleton
import proofs.«157091_j58695023067699_1_alg».proof.Proof.LibSplitContraction
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Sage

open Idealize.ShloMosaic Idealize.ShloMosaic.ValueIdx Cert.KernelIdeal Cert.KernelIdeal.Gen

/-- The linear part of a node update at row `p`, column `q` of a block. -/
def lin (x0 x1 : Vec Ideal S5000x128 .f32) (w0 w1 : Vec Ideal S128x128 .f32) (b : Vec Ideal S1x128 .f32)
    (p : Fin 5000) (q : Fin 128) : EReal :=
  ((∑ k : Fin 128, x0 (ix2 p k) * w0 (ix2 k q)) + (∑ k : Fin 128, x1 (ix2 p k) * w1 (ix2 k q))) + b (ix2 (0 : Fin 1) q)

theorem l0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem l1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem r0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem r1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One matrix product of the body at an entry: the narrowing of both operands is the identity. -/
theorem prod_at {φ : FTy} (a : FVec Ideal S5000x128 φ) (w : FVec Ideal S128x128 φ) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) :=
  Cert.Lib.SplitContraction.matmul_zero_at dot_S5000x128_S128x128_S5000x128_1_0_0_1_n_n rfl rfl l0 l1 r0 r1 none a w p q

/-- The bias row spread over the block's rows. -/
theorem bias_at (b : Vec Ideal S1x128 .f32) (p : Fin 5000) (q : Fin 128) :
    broadcastTo S5000x128 (shapeCast S1x128 b shapeCasts_S1x128_S1x128) broadcasts_S1x128_S5000x128 (ix2 p q) = b (ix2 (0 : Fin 1) q) := by
  rw [broadcastTo_1b_ab_apply, shapeCast_self]

/-- A second-layer body at one entry. -/
theorem pay_lin_at (x0 x1 : Vec Ideal S5000x128 .f32) (w0 w1 : Vec Ideal S128x128 .f32) (b : Vec Ideal S1x128 .f32)
    (p : Fin 5000) (q : Fin 128) : k2_pay1 (F := Ideal) x0 x1 w0 w1 b (ix2 p q) = lin x0 x1 w0 w1 b p q := by
  unfold k2_pay1 lin
  rw [addf_apply, addf_apply, prod_at, prod_at, bias_at]
  simp only [truncf_apply, shapeCast_self]

/-- A first-layer body at one entry. -/
theorem pay_relu_at (x0 x1 : Vec Ideal S5000x128 .f32) (w0 w1 : Vec Ideal S128x128 .f32) (b : Vec Ideal S1x128 .f32)
    (p : Fin 5000) (q : Fin 128) : k0_pay1 (F := Ideal) x0 x1 w0 w1 b (ix2 p q) = max (lin x0 x1 w0 w1 b p q) 0 := by
  unfold k0_pay1 lin
  rw [maximumf_apply, addf_apply, addf_apply, prod_at, prod_at, bias_at, broadcast_apply]
  simp only [truncf_apply, shapeCast_self]
  congr 1
  exact Ideal.ofBits_zero_f32

theorem k1_eq_k0 : @k1_pay1 = @k0_pay1 := rfl
theorem k3_eq_k2 : @k3_pay1 = @k2_pay1 := rfl

end Cert.KernelIdeal.Sage

end
-- ==== Proof.UpdateRegions.lean ====
import proofs.«157091_j58695023067699_1_alg».proof.Proof.Gen.KernelIdeal.Frame
import proofs.«157091_j58695023067699_1_alg».proof.Proof.SagePayload
import proofs.«157091_j58695023067699_1_alg».proof.Proof.SageSpec
import Idealize.ShloMosaic.Lib.Pipeline.Value
import Idealize.ShloMosaic.Lib.ValueIdx
import Idealize.ShloMosaic.Lib.Tactic

/-!
# Regions 0–3: the four node updates

Each region walks a grid of blocks of 5000 rows. At point `t` it reads rows `5000 t … 5000 t + 4999` of the aggregated
neighbour features and of the node features (both `n × 128`), the two `128 × 128` weight matrices and the `1 × 128`
bias row whole, and writes the same rows of the `n × 128` result: at row `p`, column `q` of the block
`(Σ_k agg[p,k]·Wl[k,q] + Σ_k x[p,k]·Wr[k,q]) + b[0,q]`, cut below at zero in the first layer (regions 0 and 1) and as it
is in the second (regions 2 and 3); `n` is 50000 in regions 0 and 2 (10 points) and 100000 in regions 1 and 3 (20
points). Read at the extended reals, with the five operand arrays as the region finds them, the result array
therefore ends holding the whole-array update `Cert.Sage.Spec.update` of them (`final0` … `final3`).

Per region: the index maps decided over the grid (`idx_facts`), each operand block read at an index as the array at
the matching place (`iblk_w_apply`), what one point writes back as its block of the whole-array update
(`flushed_eq`, through the block arithmetic of `Sage.pay_relu_at` / `Sage.pay_lin_at` and `lin_eq_linear`), and the
blocks cover the array because row `r` lies in block `r / 5000` (`mem_blk`, `covered`). The four regions differ in
names, sizes and the cut only.
-/

noncomputable section

open Idealize.ShloMosaic Idealize.ShloMosaic.TcCoe Idealize.SL.Sem
open Idealize.ShloMosaic.Pipeline (Dat)
open Idealize.ShloMosaic.ValueIdx
open scoped BigOperators

namespace Cert.KernelIdeal.Updates

open Cert.KernelIdeal Cert.KernelIdeal.Gen

theorem hz : (![0, 0] : Fin 2 → Nat) = fun _ => 0 := funext fun a => by fin_cases a <;> rfl

/-- The linear part of a block's entry is the linear part of the whole arrays' entry, once each operand the block
    reads is known to be the array's at the matching place: the row blocks at the shifted row `r`, the weights and the
    bias unmoved (the column is `q` in the block and `q'` in the arrays). -/
theorem lin_eq_linear {n : Nat} (x0 x1 : Vec Ideal S5000x128 .f32) (w0 w1 : Vec Ideal S128x128 .f32) (b : Vec Ideal S1x128 .f32)
    (A0 A1 : (⟨2, ![n, 128]⟩ : Shape).Idx → EReal) (W0 W1 : (⟨2, ![128, 128]⟩ : Shape).Idx → EReal) (B : Fin 128 → EReal)
    (p : Fin 5000) (q q' : Fin 128) (r : Fin n)
    (h0 : ∀ k : Fin 128, x0 (ix2 p k) = A0 (ix2 r k)) (h1 : ∀ k : Fin 128, x1 (ix2 p k) = A1 (ix2 r k))
    (hw0 : ∀ k : Fin 128, w0 (ix2 k q) = W0 (ix2 k q')) (hw1 : ∀ k : Fin 128, w1 (ix2 k q) = W1 (ix2 k q'))
    (hb : b (ix2 (0 : Fin 1) q) = B q') :
    Sage.lin x0 x1 w0 w1 b p q = Cert.Sage.Spec.linear A0 A1 W0 W1 B r q' := by
  unfold Sage.lin Cert.Sage.Spec.linear
  rw [hb]
  congr 1
  congr 1
  · exact Finset.sum_congr rfl fun k _ => by rw [h0, hw0]
  · exact Finset.sum_congr rfl fun k _ => by rw [h1, hw1]

/-- A first-layer update at an index: the linear part cut below at zero. -/
theorem update_true_apply {n : Nat} (agg x : (⟨2, ![n, 128]⟩ : Shape).Idx → EReal) (wl wr : (⟨2, ![128, 128]⟩ : Shape).Idx → EReal)
    (b : Fin 128 → EReal) (i : (⟨2, ![n, 128]⟩ : Shape).Idx) :
    Cert.Sage.Spec.update true agg x wl wr b i
      = max (Cert.Sage.Spec.linear agg x wl wr b ⟨(i 0).val, (i 0).isLt⟩ ⟨(i 1).val, (i 1).isLt⟩) 0 := rfl

/-- A second-layer update at an index: the linear part. -/
theorem update_false_apply {n : Nat} (agg x : (⟨2, ![n, 128]⟩ : Shape).Idx → EReal) (wl wr : (⟨2, ![128, 128]⟩ : Shape).Idx → EReal)
    (b : Fin 128 → EReal) (i : (⟨2, ![n, 128]⟩ : Shape).Idx) :
    Cert.Sage.Spec.update false agg x wl wr b i
      = Cert.Sage.Spec.linear agg x wl wr b ⟨(i 0).val, (i 0).isLt⟩ ⟨(i 1).val, (i 1).isLt⟩ := rfl

variable (V : (c : Dev nD) → (b : Ref sig .tc) → Buf (Elt Ideal) ((c : Thread nD τ).loc b))

/-! ## Region 0: a first-layer update of 50000 rows, 10 blocks of 5000 -/

/-- The six index maps, decided over the grid: at point `t` the two row-block operands and the result are at block
    `(t, 0)`, the weights and the bias at block `(0, 0)`. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- Window 0's block at point `t`, read at `(p, k)`, is the aggregated-feature array at row `5000 t + p`. -/
theorem iblk0_0_apply (c : Dev nD) (t : Fin cfg0.N) (x : S5000x128.Idx) (i : S50000x128.Idx)
    (h0 : (i 0).val = 5000 * t.val + (x 0).val) (h1 : (i 1).val = (x 1).val) :
    (iblk0 V c 0 t : Vec Ideal S5000x128 .f32) x = (V c (Pipeline.arrRef spec0 0) : S50000x128.Idx → EReal) i := by
  obtain ⟨e0, e1⟩ := (idx_facts0 t).1
  unfold iblk0
  rw [View.read_apply]
  show (V c (Pipeline.arrRef spec0 0) : S50000x128.Idx → EReal) (((cfg0.win 0).blk t).view.emb x) = _
  congr 1
  funext a
  apply Fin.ext
  match a with
  | ⟨0, _⟩ => show win0_0.index t 0 * 5000 + 1 * (x 0).val = (i 0).val; rw [e0, h0]; omega
  | ⟨1, _⟩ => show win0_0.index t 1 * 128 + 1 * (x 1).val = (i 1).val; rw [e1, h1]; omega

/-- Window 1's block at point `t`, read at `(p, k)`, is the node-feature array at row `5000 t + p`. -/
theorem iblk0_1_apply (c : Dev nD) (t : Fin cfg0.N) (x : S5000x128.Idx) (i : S50000x128.Idx)
    (h0 : (i 0).val = 5000 * t.val + (x 0).val) (h1 : (i 1).val = (x 1).val) :
    (iblk0 V c 1 t : Vec Ideal S5000x128 .f32) x = (V c (Pipeline.arrRef spec0 1) : S50000x128.Idx → EReal) i := by
  obtain ⟨e0, e1⟩ := (idx_facts0 t).2.1
  unfold iblk0
  rw [View.read_apply]
  show (V c (Pipeline.arrRef spec0 1) : S50000x128.Idx → EReal) (((cfg0.win 1).blk t).view.emb x) = _
  congr 1
  funext a
  apply Fin.ext
  match a with
  | ⟨0, _⟩ => show win0_1.index t 0 * 5000 + 1 * (x 0).val = (i 0).val; rw [e0, h0]; omega
  | ⟨1, _⟩ => show win0_1.index t 1 * 128 + 1 * (x 1).val = (i 1).val; rw [e1, h1]; omega

/-- Window 2's block at any point is the whole first weight array. -/
theorem iblk0_2_apply (c : Dev nD) (t : Fin cfg0.N) (x : S128x128.Idx) (i : S128x128.Idx)
    (h0 : (i 0).val = (x 0).val) (h1 : (i 1).val = (x 1).val) :
    (iblk0 V c 2 t : Vec Ideal S128x128 .f32) x = (V c (Pipeline.arrRef spec0 2) : S128x128.Idx → EReal) i := by
  obtain ⟨e0, e1⟩ := (idx_facts0 t).2.2.1
  unfold iblk0
  rw [View.read_apply]
  show (V c (Pipeline.arrRef spec0 2) : S128x128.Idx → EReal) (((cfg0.win 2).blk t).view.emb x) = _
  congr 1
  funext a
  apply Fin.ext
  match a with
  | ⟨0, _⟩ => show win0_2.index t 0 * 128 + 1 * (x 0).val = (i 0).val; rw [e0, h0]; omega
  | ⟨1, _⟩ => show win0_2.index t 1 * 128 + 1 * (x 1).val = (i 1).val; rw [e1, h1]; omega

/-- Window 3's block at any point is the whole second weight array. -/
theorem iblk0_3_apply (c : Dev nD) (t : Fin cfg0.N) (x : S128x128.Idx) (i : S128x128.Idx)
    (h0 : (i 0).val = (x 0).val) (h1 : (i 1).val = (x 1).val) :
    (iblk0 V c 3 t : Vec Ideal S128x128 .f32) x = (V c (Pipeline.arrRef spec0 3) : S128x128.Idx → EReal) i := by
  obtain ⟨e0, e1⟩ := (idx_facts0 t).2.2.2.1
  unfold iblk0
  rw [View.read_apply]
  show (V c (Pipeline.arrRef spec0 3) : S128x128.Idx → EReal) (((cfg0.win 3).blk t).view.emb x) = _
  congr 1
  funext a
  apply Fin.ext
  match a with
  | ⟨0, _⟩ => show win0_3.index t 0 * 128 + 1 * (x 0).val = (i 0).val; rw [e0, h0]; omega
  | ⟨1, _⟩ => show win0_3.index t 1 * 128 + 1 * (x 1).val = (i 1).val; rw [e1, h1]; omega

/-- Window 4's block at any point is the whole bias array. -/
theorem iblk0_4_apply (c : Dev nD) (t : Fin cfg0.N) (x : S1x128.Idx) (i : S1x128.Idx)
    (h0 : (i 0).val = (x 0).val) (h1 : (i 1).val = (x 1).val) :
    (iblk0 V c 4 t : Vec Ideal S1x128 .f32) x = (V c (Pipeline.arrRef spec0 4) : S1x128.Idx → EReal) i := by
  obtain ⟨e0, e1⟩ := (idx_facts0 t).2.2.2.2.1
  unfold iblk0
  rw [View.read_apply]
  show (V c (Pipeline.arrRef spec0 4) : S1x128.Idx → EReal) (((cfg0.win 4).blk t).view.emb x) = _
  congr 1
  funext a
  apply Fin.ext
  match a with
  | ⟨0, _⟩ => show win0_4.index t 0 * 1 + 1 * (x 0).val = (i 0).val; rw [e0, h0]; omega
  | ⟨1, _⟩ => show win0_4.index t 1 * 128 + 1 * (x 1).val = (i 1).val; rw [e1, h1]; omega

set_option maxHeartbeats 1000000 in
/-- What point `t` writes back is block `t` of the update of the whole arrays as the region finds them. -/
theorem flushed0_eq (c : Dev nD) (t : Fin cfg0.N) :
    (dat0 (F := Ideal) V c).flushed 5 t
      = ((cfg0.win 5).blk t).view.read (Elt Ideal) (Cert.Sage.Spec.update (n := 50000) true (V c (Pipeline.arrRef spec0 0)) (V c (Pipeline.arrRef spec0 1))
        (V c (Pipeline.arrRef spec0 2)) (V c (Pipeline.arrRef spec0 3)) (fun q => V c (Pipeline.arrRef spec0 4) (ix2 (0 : Fin 1) q))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  show k0_pay1 (iblk0 V c 0 t) (iblk0 V c 1 t) (iblk0 V c 2 t) (iblk0 V c 3 t) (iblk0 V c 4 t)
      ((win0 5).xinj (grid0.coords t) j)
    = (Cert.Sage.Spec.update (n := 50000) true (V c (Pipeline.arrRef spec0 0)) (V c (Pipeline.arrRef spec0 1))
        (V c (Pipeline.arrRef spec0 2)) (V c (Pipeline.arrRef spec0 3)) (fun q => V c (Pipeline.arrRef spec0 4) (ix2 (0 : Fin 1) q))) (((cfg0.win 5).blk t).view.emb j)
  refine (congrArg (k0_pay1 (F := Ideal) _ _ _ _ _) (eq_ix2 (n0 := 5000) (n1 := 128) ((win0 5).xinj (grid0.coords t) j))).trans ?_
  refine (Sage.pay_relu_at _ _ _ _ _ _ _).trans ?_
  refine Eq.trans ?_ (update_true_apply _ _ _ _ _ _).symm
  refine congrArg (max · 0) ?_
  obtain ⟨e0, e1⟩ := (idx_facts0 t).2.2.2.2.2
  have hr : ((((cfg0.win 5).blk t).view.emb j) 0).val = 5000 * t.val + (j 0).val := by
    show win0_5.index t 0 * 5000 + 1 * (j 0).val = _
    rw [e0]; omega
  have hc : ((((cfg0.win 5).blk t).view.emb j) 1).val = (j 1).val := by
    show win0_5.index t 1 * 128 + 1 * (j 1).val = _
    rw [e1]; omega
  exact lin_eq_linear _ _ _ _ _ _ _ _ _ _ _ _ _ _
    (fun k => iblk0_0_apply V c t _ _ hr rfl) (fun k => iblk0_1_apply V c t _ _ hr rfl)
    (fun k => iblk0_2_apply V c t _ _ rfl hc) (fun k => iblk0_3_apply V c t _ _ rfl hc)
    (iblk0_4_apply V c t _ _ rfl hc)

/-- An index of the result array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v19).slice (win0_5.rect t)).set ↔ _
  rw [View.set_slice_whole, Rect.mem_set_unit]
  exact Iff.rfl

/-- Every entry of the result array is written by some point: row `r` by point `r / 5000`. -/
theorem covered0 (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  have hN : cfg0.N = 10 := N_0
  obtain ⟨t, ht⟩ : ∃ t : Fin cfg0.N, t.val = (i 0).val / 5000 := ⟨⟨(i 0).val / 5000, by omega⟩, rfl⟩
  obtain ⟨e0, e1⟩ := (idx_facts0 t).2.2.2.2.2
  refine ⟨t, flush0_5 t, ?_⟩
  rw [mem_blk0]
  intro a
  match a with
  | ⟨0, _⟩ =>
    show win0_5.index t 0 * 5000 ≤ (i 0).val ∧ (i 0).val < win0_5.index t 0 * 5000 + 5000
    rw [e0, ht]; omega
  | ⟨1, _⟩ =>
    show win0_5.index t 1 * 128 ≤ (i 1).val ∧ (i 1).val < win0_5.index t 1 * 128 + 128
    rw [e1]; omega

/-- The result array after region 0: the first-layer update of the five operand arrays as the region finds them. -/
theorem final0 (c : Dev nD) :
    (dat0 (F := Ideal) V c).arrAt 5 cfg0.N
      = (Cert.Sage.Spec.update (n := 50000) true (V c (Pipeline.arrRef spec0 0)) (V c (Pipeline.arrRef spec0 1))
        (V c (Pipeline.arrRef spec0 2)) (V c (Pipeline.arrRef spec0 3)) (fun q => V c (Pipeline.arrRef spec0 4) (ix2 (0 : Fin 1) q))) :=
  (dat0 V c).arrAt_eq_of_cover 5 _ (fun t _ => flushed0_eq V c t) covered0

/-! ## Region 1: a first-layer update of 100000 rows, 20 blocks of 5000 -/

/-- The six index maps, decided over the grid: at point `t` the two row-block operands and the result are at block
    `(t, 0)`, the weights and the bias at block `(0, 0)`. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- Window 0's block at point `t`, read at `(p, k)`, is the aggregated-feature array at row `5000 t + p`. -/
theorem iblk1_0_apply (c : Dev nD) (t : Fin cfg1.N) (x : S5000x128.Idx) (i : S100000x128.Idx)
    (h0 : (i 0).val = 5000 * t.val + (x 0).val) (h1 : (i 1).val = (x 1).val) :
    (iblk1 V c 0 t : Vec Ideal S5000x128 .f32) x = (V c (Pipeline.arrRef spec1 0) : S100000x128.Idx → EReal) i := by
  obtain ⟨e0, e1⟩ := (idx_facts1 t).1
  unfold iblk1
  rw [View.read_apply]
  show (V c (Pipeline.arrRef spec1 0) : S100000x128.Idx → EReal) (((cfg1.win 0).blk t).view.emb x) = _
  congr 1
  funext a
  apply Fin.ext
  match a with
  | ⟨0, _⟩ => show win1_0.index t 0 * 5000 + 1 * (x 0).val = (i 0).val; rw [e0, h0]; omega
  | ⟨1, _⟩ => show win1_0.index t 1 * 128 + 1 * (x 1).val = (i 1).val; rw [e1, h1]; omega

/-- Window 1's block at point `t`, read at `(p, k)`, is the node-feature array at row `5000 t + p`. -/
theorem iblk1_1_apply (c : Dev nD) (t : Fin cfg1.N) (x : S5000x128.Idx) (i : S100000x128.Idx)
    (h0 : (i 0).val = 5000 * t.val + (x 0).val) (h1 : (i 1).val = (x 1).val) :
    (iblk1 V c 1 t : Vec Ideal S5000x128 .f32) x = (V c (Pipeline.arrRef spec1 1) : S100000x128.Idx → EReal) i := by
  obtain ⟨e0, e1⟩ := (idx_facts1 t).2.1
  unfold iblk1
  rw [View.read_apply]
  show (V c (Pipeline.arrRef spec1 1) : S100000x128.Idx → EReal) (((cfg1.win 1).blk t).view.emb x) = _
  congr 1
  funext a
  apply Fin.ext
  match a with
  | ⟨0, _⟩ => show win1_1.index t 0 * 5000 + 1 * (x 0).val = (i 0).val; rw [e0, h0]; omega
  | ⟨1, _⟩ => show win1_1.index t 1 * 128 + 1 * (x 1).val = (i 1).val; rw [e1, h1]; omega

/-- Window 2's block at any point is the whole first weight array. -/
theorem iblk1_2_apply (c : Dev nD) (t : Fin cfg1.N) (x : S128x128.Idx) (i : S128x128.Idx)
    (h0 : (i 0).val = (x 0).val) (h1 : (i 1).val = (x 1).val) :
    (iblk1 V c 2 t : Vec Ideal S128x128 .f32) x = (V c (Pipeline.arrRef spec1 2) : S128x128.Idx → EReal) i := by
  obtain ⟨e0, e1⟩ := (idx_facts1 t).2.2.1
  unfold iblk1
  rw [View.read_apply]
  show (V c (Pipeline.arrRef spec1 2) : S128x128.Idx → EReal) (((cfg1.win 2).blk t).view.emb x) = _
  congr 1
  funext a
  apply Fin.ext
  match a with
  | ⟨0, _⟩ => show win1_2.index t 0 * 128 + 1 * (x 0).val = (i 0).val; rw [e0, h0]; omega
  | ⟨1, _⟩ => show win1_2.index t 1 * 128 + 1 * (x 1).val = (i 1).val; rw [e1, h1]; omega

/-- Window 3's block at any point is the whole second weight array. -/
theorem iblk1_3_apply (c : Dev nD) (t : Fin cfg1.N) (x : S128x128.Idx) (i : S128x128.Idx)
    (h0 : (i 0).val = (x 0).val) (h1 : (i 1).val = (x 1).val) :
    (iblk1 V c 3 t : Vec Ideal S128x128 .f32) x = (V c (Pipeline.arrRef spec1 3) : S128x128.Idx → EReal) i := by
  obtain ⟨e0, e1⟩ := (idx_facts1 t).2.2.2.1
  unfold iblk1
  rw [View.read_apply]
  show (V c (Pipeline.arrRef spec1 3) : S128x128.Idx → EReal) (((cfg1.win 3).blk t).view.emb x) = _
  congr 1
  funext a
  apply Fin.ext
  match a with
  | ⟨0, _⟩ => show win1_3.index t 0 * 128 + 1 * (x 0).val = (i 0).val; rw [e0, h0]; omega
  | ⟨1, _⟩ => show win1_3.index t 1 * 128 + 1 * (x 1).val = (i 1).val; rw [e1, h1]; omega

/-- Window 4's block at any point is the whole bias array. -/
theorem iblk1_4_apply (c : Dev nD) (t : Fin cfg1.N) (x : S1x128.Idx) (i : S1x128.Idx)
    (h0 : (i 0).val = (x 0).val) (h1 : (i 1).val = (x 1).val) :
    (iblk1 V c 4 t : Vec Ideal S1x128 .f32) x = (V c (Pipeline.arrRef spec1 4) : S1x128.Idx → EReal) i := by
  obtain ⟨e0, e1⟩ := (idx_facts1 t).2.2.2.2.1
  unfold iblk1
  rw [View.read_apply]
  show (V c (Pipeline.arrRef spec1 4) : S1x128.Idx → EReal) (((cfg1.win 4).blk t).view.emb x) = _
  congr 1
  funext a
  apply Fin.ext
  match a with
  | ⟨0, _⟩ => show win1_4.index t 0 * 1 + 1 * (x 0).val = (i 0).val; rw [e0, h0]; omega
  | ⟨1, _⟩ => show win1_4.index t 1 * 128 + 1 * (x 1).val = (i 1).val; rw [e1, h1]; omega

set_option maxHeartbeats 1000000 in
/-- What point `t` writes back is block `t` of the update of the whole arrays as the region finds them. -/
theorem flushed1_eq (c : Dev nD) (t : Fin cfg1.N) :
    (dat1 (F := Ideal) V c).flushed 5 t
      = ((cfg1.win 5).blk t).view.read (Elt Ideal) (Cert.Sage.Spec.update (n := 100000) true (V c (Pipeline.arrRef spec1 0)) (V c (Pipeline.arrRef spec1 1))
        (V c (Pipeline.arrRef spec1 2)) (V c (Pipeline.arrRef spec1 3)) (fun q => V c (Pipeline.arrRef spec1 4) (ix2 (0 : Fin 1) q))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  show k1_pay1 (iblk1 V c 0 t) (iblk1 V c 1 t) (iblk1 V c 2 t) (iblk1 V c 3 t) (iblk1 V c 4 t)
      ((win1 5).xinj (grid1.coords t) j)
    = (Cert.Sage.Spec.update (n := 100000) true (V c (Pipeline.arrRef spec1 0)) (V c (Pipeline.arrRef spec1 1))
        (V c (Pipeline.arrRef spec1 2)) (V c (Pipeline.arrRef spec1 3)) (fun q => V c (Pipeline.arrRef spec1 4) (ix2 (0 : Fin 1) q))) (((cfg1.win 5).blk t).view.emb j)
  refine (congrArg (k1_pay1 (F := Ideal) _ _ _ _ _) (eq_ix2 (n0 := 5000) (n1 := 128) ((win1 5).xinj (grid1.coords t) j))).trans ?_
  rw [Sage.k1_eq_k0]
  refine (Sage.pay_relu_at _ _ _ _ _ _ _).trans ?_
  refine Eq.trans ?_ (update_true_apply _ _ _ _ _ _).symm
  refine congrArg (max · 0) ?_
  obtain ⟨e0, e1⟩ := (idx_facts1 t).2.2.2.2.2
  have hr : ((((cfg1.win 5).blk t).view.emb j) 0).val = 5000 * t.val + (j 0).val := by
    show win1_5.index t 0 * 5000 + 1 * (j 0).val = _
    rw [e0]; omega
  have hc : ((((cfg1.win 5).blk t).view.emb j) 1).val = (j 1).val := by
    show win1_5.index t 1 * 128 + 1 * (j 1).val = _
    rw [e1]; omega
  exact lin_eq_linear _ _ _ _ _ _ _ _ _ _ _ _ _ _
    (fun k => iblk1_0_apply V c t _ _ hr rfl) (fun k => iblk1_1_apply V c t _ _ hr rfl)
    (fun k => iblk1_2_apply V c t _ _ rfl hc) (fun k => iblk1_3_apply V c t _ _ rfl hc)
    (iblk1_4_apply V c t _ _ rfl hc)

/-- An index of the result array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v40).slice (win1_5.rect t)).set ↔ _
  rw [View.set_slice_whole, Rect.mem_set_unit]
  exact Iff.rfl

/-- Every entry of the result array is written by some point: row `r` by point `r / 5000`. -/
theorem covered1 (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  have hN : cfg1.N = 20 := N_1
  obtain ⟨t, ht⟩ : ∃ t : Fin cfg1.N, t.val = (i 0).val / 5000 := ⟨⟨(i 0).val / 5000, by omega⟩, rfl⟩
  obtain ⟨e0, e1⟩ := (idx_facts1 t).2.2.2.2.2
  refine ⟨t, flush1_5 t, ?_⟩
  rw [mem_blk1]
  intro a
  match a with
  | ⟨0, _⟩ =>
    show win1_5.index t 0 * 5000 ≤ (i 0).val ∧ (i 0).val < win1_5.index t 0 * 5000 + 5000
    rw [e0, ht]; omega
  | ⟨1, _⟩ =>
    show win1_5.index t 1 * 128 ≤ (i 1).val ∧ (i 1).val < win1_5.index t 1 * 128 + 128
    rw [e1]; omega

/-- The result array after region 1: the first-layer update of the five operand arrays as the region finds them. -/
theorem final1 (c : Dev nD) :
    (dat1 (F := Ideal) V c).arrAt 5 cfg1.N
      = (Cert.Sage.Spec.update (n := 100000) true (V c (Pipeline.arrRef spec1 0)) (V c (Pipeline.arrRef spec1 1))
        (V c (Pipeline.arrRef spec1 2)) (V c (Pipeline.arrRef spec1 3)) (fun q => V c (Pipeline.arrRef spec1 4) (ix2 (0 : Fin 1) q))) :=
  (dat1 V c).arrAt_eq_of_cover 5 _ (fun t _ => flushed1_eq V c t) covered1

/-! ## Region 2: a second-layer update of 50000 rows, 10 blocks of 5000 -/

/-- The six index maps, decided over the grid: at point `t` the two row-block operands and the result are at block
    `(t, 0)`, the weights and the bias at block `(0, 0)`. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

/-- Window 0's block at point `t`, read at `(p, k)`, is the aggregated-feature array at row `5000 t + p`. -/
theorem iblk2_0_apply (c : Dev nD) (t : Fin cfg2.N) (x : S5000x128.Idx) (i : S50000x128.Idx)
    (h0 : (i 0).val = 5000 * t.val + (x 0).val) (h1 : (i 1).val = (x 1).val) :
    (iblk2 V c 0 t : Vec Ideal S5000x128 .f32) x = (V c (Pipeline.arrRef spec2 0) : S50000x128.Idx → EReal) i := by
  obtain ⟨e0, e1⟩ := (idx_facts2 t).1
  unfold iblk2
  rw [View.read_apply]
  show (V c (Pipeline.arrRef spec2 0) : S50000x128.Idx → EReal) (((cfg2.win 0).blk t).view.emb x) = _
  congr 1
  funext a
  apply Fin.ext
  match a with
  | ⟨0, _⟩ => show win2_0.index t 0 * 5000 + 1 * (x 0).val = (i 0).val; rw [e0, h0]; omega
  | ⟨1, _⟩ => show win2_0.index t 1 * 128 + 1 * (x 1).val = (i 1).val; rw [e1, h1]; omega

/-- Window 1's block at point `t`, read at `(p, k)`, is the node-feature array at row `5000 t + p`. -/
theorem iblk2_1_apply (c : Dev nD) (t : Fin cfg2.N) (x : S5000x128.Idx) (i : S50000x128.Idx)
    (h0 : (i 0).val = 5000 * t.val + (x 0).val) (h1 : (i 1).val = (x 1).val) :
    (iblk2 V c 1 t : Vec Ideal S5000x128 .f32) x = (V c (Pipeline.arrRef spec2 1) : S50000x128.Idx → EReal) i := by
  obtain ⟨e0, e1⟩ := (idx_facts2 t).2.1
  unfold iblk2
  rw [View.read_apply]
  show (V c (Pipeline.arrRef spec2 1) : S50000x128.Idx → EReal) (((cfg2.win 1).blk t).view.emb x) = _
  congr 1
  funext a
  apply Fin.ext
  match a with
  | ⟨0, _⟩ => show win2_1.index t 0 * 5000 + 1 * (x 0).val = (i 0).val; rw [e0, h0]; omega
  | ⟨1, _⟩ => show win2_1.index t 1 * 128 + 1 * (x 1).val = (i 1).val; rw [e1, h1]; omega

/-- Window 2's block at any point is the whole first weight array. -/
theorem iblk2_2_apply (c : Dev nD) (t : Fin cfg2.N) (x : S128x128.Idx) (i : S128x128.Idx)
    (h0 : (i 0).val = (x 0).val) (h1 : (i 1).val = (x 1).val) :
    (iblk2 V c 2 t : Vec Ideal S128x128 .f32) x = (V c (Pipeline.arrRef spec2 2) : S128x128.Idx → EReal) i := by
  obtain ⟨e0, e1⟩ := (idx_facts2 t).2.2.1
  unfold iblk2
  rw [View.read_apply]
  show (V c (Pipeline.arrRef spec2 2) : S128x128.Idx → EReal) (((cfg2.win 2).blk t).view.emb x) = _
  congr 1
  funext a
  apply Fin.ext
  match a with
  | ⟨0, _⟩ => show win2_2.index t 0 * 128 + 1 * (x 0).val = (i 0).val; rw [e0, h0]; omega
  | ⟨1, _⟩ => show win2_2.index t 1 * 128 + 1 * (x 1).val = (i 1).val; rw [e1, h1]; omega

/-- Window 3's block at any point is the whole second weight array. -/
theorem iblk2_3_apply (c : Dev nD) (t : Fin cfg2.N) (x : S128x128.Idx) (i : S128x128.Idx)
    (h0 : (i 0).val = (x 0).val) (h1 : (i 1).val = (x 1).val) :
    (iblk2 V c 3 t : Vec Ideal S128x128 .f32) x = (V c (Pipeline.arrRef spec2 3) : S128x128.Idx → EReal) i := by
  obtain ⟨e0, e1⟩ := (idx_facts2 t).2.2.2.1
  unfold iblk2
  rw [View.read_apply]
  show (V c (Pipeline.arrRef spec2 3) : S128x128.Idx → EReal) (((cfg2.win 3).blk t).view.emb x) = _
  congr 1
  funext a
  apply Fin.ext
  match a with
  | ⟨0, _⟩ => show win2_3.index t 0 * 128 + 1 * (x 0).val = (i 0).val; rw [e0, h0]; omega
  | ⟨1, _⟩ => show win2_3.index t 1 * 128 + 1 * (x 1).val = (i 1).val; rw [e1, h1]; omega

/-- Window 4's block at any point is the whole bias array. -/
theorem iblk2_4_apply (c : Dev nD) (t : Fin cfg2.N) (x : S1x128.Idx) (i : S1x128.Idx)
    (h0 : (i 0).val = (x 0).val) (h1 : (i 1).val = (x 1).val) :
    (iblk2 V c 4 t : Vec Ideal S1x128 .f32) x = (V c (Pipeline.arrRef spec2 4) : S1x128.Idx → EReal) i := by
  obtain ⟨e0, e1⟩ := (idx_facts2 t).2.2.2.2.1
  unfold iblk2
  rw [View.read_apply]
  show (V c (Pipeline.arrRef spec2 4) : S1x128.Idx → EReal) (((cfg2.win 4).blk t).view.emb x) = _
  congr 1
  funext a
  apply Fin.ext
  match a with
  | ⟨0, _⟩ => show win2_4.index t 0 * 1 + 1 * (x 0).val = (i 0).val; rw [e0, h0]; omega
  | ⟨1, _⟩ => show win2_4.index t 1 * 128 + 1 * (x 1).val = (i 1).val; rw [e1, h1]; omega

set_option maxHeartbeats 1000000 in
/-- What point `t` writes back is block `t` of the update of the whole arrays as the region finds them. -/
theorem flushed2_eq (c : Dev nD) (t : Fin cfg2.N) :
    (dat2 (F := Ideal) V c).flushed 5 t
      = ((cfg2.win 5).blk t).view.read (Elt Ideal) (Cert.Sage.Spec.update (n := 50000) false (V c (Pipeline.arrRef spec2 0)) (V c (Pipeline.arrRef spec2 1))
        (V c (Pipeline.arrRef spec2 2)) (V c (Pipeline.arrRef spec2 3)) (fun q => V c (Pipeline.arrRef spec2 4) (ix2 (0 : Fin 1) q))) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext j
  show k2_pay1 (iblk2 V c 0 t) (iblk2 V c 1 t) (iblk2 V c 2 t) (iblk2 V c 3 t) (iblk2 V c 4 t)
      ((win2 5).xinj (grid2.coords t) j)
    = (Cert.Sage.Spec.update (n := 50000) false (V c (Pipeline.arrRef spec2 0)) (V c (Pipeline.arrRef spec2 1))
        (V c (Pipeline.arrRef spec2 2)) (V c (Pipeline.arrRef spec2 3)) (fun q => V c (Pipeline.arrRef spec2 4) (ix2 (0 : Fin 1) q))) (((cfg2.win 5).blk t).view.emb j)
  refine (congrArg (k2_pay1 (F := Ideal) _ _ _ _ _) (eq_ix2 (n0 := 5000) (n1 := 128) ((win2 5).xinj (grid2.coords t) j))).trans ?_
  refine (Sage.pay_lin_at _ _ _ _ _ _ _).trans ?_
  refine Eq.trans ?_ (update_false_apply _ _ _ _ _ _).symm
  obtain ⟨e0, e1⟩ := (idx_facts2 t).2.2.2.2.2
  have hr : ((((cfg2.win 5).blk t).view.emb j) 0).val = 5000 * t.val + (j 0).val := by
    show win2_5.index t 0 * 5000 + 1 * (j 0).val = _
    rw [e0]; omega
  have hc : ((((cfg2.win 5).blk t).view.emb j) 1).val = (j 1).val := by
    show win2_5.index t 1 * 128 + 1 * (j 1).val = _
    rw [e1]; omega
  exact lin_eq_linear _ _ _ _ _ _ _ _ _ _ _ _ _ _
    (fun k => iblk2_0_apply V c t _ _ hr rfl) (fun k => iblk2_1_apply V c t _ _ hr rfl)
    (fun k => iblk2_2_apply V c t _ _ rfl hc) (fun k => iblk2_3_apply V c t _ _ rfl hc)
    (iblk2_4_apply V c t _ _ rfl hc)

/-- An index of the result array is in point `t`'s block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v61).slice (win2_5.rect t)).set ↔ _
  rw [View.set_slice_whole, Rect.mem_set_unit]
  exact Iff.rfl

/-- Every entry of the result array is written by some point: row `r` by point `r / 5000`. -/
theorem covered2 (i : S50000x128.Idx) :
    ∃ t : Fin cfg2.N, (cfg2.win 5).flush t = true ∧ i ∈ ((cfg2.win 5).blk t).view.set := by
  have hi0 : (i 0).val < 50000 := idx2_lt0 i
  have hi1 : (i 1).val < 128 := idx2_lt1 i
  have hN : cfg2.N = 10 := N_2
  obtain ⟨t, ht⟩ : ∃ t : Fin cfg2.N, t.val = (i 0).val / 5000 := ⟨⟨(i 0).val / 5000, by omega⟩, rfl⟩
  obtain ⟨e0, e1⟩ := (idx_facts2 t).2.2.2.2.2
  refine ⟨t, flush2_5 t, ?_⟩
  rw [mem_blk2]
  intro a
  match a with
  | ⟨0, _⟩ =>
    show win2_5.index t 0 * 5000 ≤ (i 0).val ∧ (i 0).val < win2_5.index t 0 * 5000 + 5000
    rw [e0, ht]; omega
  | ⟨1, _⟩ =>
    show win2_5.index t 1 * 128 ≤ (i 1).val ∧ (i 1).val < win2_5.index t 1 * 128 + 128
    rw [e1]; omega

/-- The result array after region 2: the second-layer update of the five operand arrays as the region finds them. -/
theorem final2 (c : Dev nD) :
    (dat2 (F := Ideal) V c).arrAt 5 cfg2.N
      = (Cert.Sage.Spec.update (n := 50000) false (V c (Pipeline.arrRef spec2 0)) (V c (Pipeline.arrRef spec2 1))
        (V c (Pipeline.arrRef spec2 2)) (V c (Pipeline.arrRef spec2 3)) (fun q => V c (Pipeline.arrRef spec2 4) (ix2 (0 : Fin 1) q))) :=
  (dat2 V c).arrAt_eq_of_cover 5 _ (fun t _ => flushed2_eq V c t) covered2

/-! ## Region 3: a second-layer update of 100000 rows, 20 blocks of 5000 -/

/-- The six index maps, decided over the grid: at point `t` the two row-block operands and the result are at block
    `(t, 0)`, the weights and the bias at block `(0, 0)`. -/
theorem idx_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0) :=
  (by decide +kernel : ∀ t : Fin grid3.N, _)

/-- Window 0's block at point `t`, read at `(p, k)`, is the aggregated-feature array at row `5000 t + p`. -/
theorem iblk3_0_apply (c : Dev nD) (t : Fin cfg3.N) (x : S5000x128.Idx) (i : S100000x128.Idx)
    (h0 : (i 0).val = 5000 * t.val + (x 0).val) (h1 : (i 1).val = (x 1).val) :
    (iblk3 V c 0 t : Vec Ideal S5000x128 .f32) x = (V c (Pipeline.arrRef spec3 0) : S100000x128.Idx → EReal) i := by
  obtain ⟨e0, e1⟩ := (idx_facts3 t).1
  unfold iblk3
  rw [View.read_apply]
  show (V c (Pipeline.arrRef spec3 0) : S100000x128.Idx → EReal) (((cfg3.win 0).blk t).view.emb x) = _
  congr 1
  funext a
  apply Fin.ext
  match a with
  | ⟨0, _⟩ => show win3_0.index t 0 * 5000 + 1 * (x 0).val = (i 0).val; rw [e0, h0]; omega
  | ⟨1, _⟩ => show win3_0.index t 1 * 128 + 1 * (x 1).val = (i 1).val; rw [e1, h1]; omega

/-- Window 1's block at point `t`, read at `(p, k)`, is the node-feature array at row `5000 t + p`. -/
theorem iblk3_1_apply (c : Dev nD) (t : Fin cfg3.N) (x : S5000x128.Idx) (i : S100000x128.Idx)
    (h0 : (i 0).val = 5000 * t.val + (x 0).val) (h1 : (i 1).val = (x 1).val) :
    (iblk3 V c 1 t : Vec Ideal S5000x128 .f32) x = (V c (Pipeline.arrRef spec3 1) : S100000x128.Idx → EReal) i := by
  obtain ⟨e0, e1⟩ := (idx_facts3 t).2.1
  unfold iblk3
  rw [View.read_apply]
  show (V c (Pipeline.arrRef spec3 1) : S100000x128.Idx → EReal) (((cfg3.win 1).blk t).view.emb x) = _
  congr 1
  funext a
  apply Fin.ext
  match a with
  | ⟨0, _⟩ => show win3_1.index t 0 * 5000 + 1 * (x 0).val = (i 0).val; rw [e0, h0]; omega
  | ⟨1, _⟩ => show win3_1.index t 1 * 128 + 1 * (x 1).val = (i 1).val; rw [e1, h1]; omega

/-- Window 2's block at any point is the whole first weight array. -/
theorem iblk3_2_apply (c : Dev nD) (t : Fin cfg3.N) (x : S128x128.Idx) (i : S128x128.Idx)
    (h0 : (i 0).val = (x 0).val) (h1 : (i 1).val = (x 1).val) :
    (iblk3 V c 2 t : Vec Ideal S128x128 .f32) x = (V c (Pipeline.arrRef spec3 2) : S128x128.Idx → EReal) i := by
  obtain ⟨e0, e1⟩ := (idx_facts3 t).2.2.1
  unfold iblk3
  rw [View.read_apply]
  show (V c (Pipeline.arrRef spec3 2) : S128x128.Idx → EReal) (((cfg3.win 2).blk t).view.emb x) = _
  congr 1
  funext a
  apply Fin.ext
  match a with
  | ⟨0, _⟩ => show win3_2.index t 0 * 128 + 1 * (x 0).val = (i 0).val; rw [e0, h0]; omega
  | ⟨1, _⟩ => show win3_2.index t 1 * 128 + 1 * (x 1).val = (i 1).val; rw [e1, h1]; omega

/-- Window 3's block at any point is the whole second weight array. -/
theorem iblk3_3_apply (c : Dev nD) (t : Fin cfg3.N) (x : S128x128.Idx) (i : S128x128.Idx)
    (h0 : (i 0).val = (x 0).val) (h1 : (i 1).val = (x 1).val) :
    (iblk3 V c 3 t : Vec Ideal S128x128 .f32) x = (V c (Pipeline.arrRef spec3 3) : S128x128.Idx → EReal) i := by
  obtain ⟨e0, e1⟩ := (idx_facts3 t).2.2.2.1
  unfold iblk3
  rw [View.read_apply]
  show (V c (Pipeline.arrRef spec3 3) : S128x128.Idx → EReal) (((cfg3.win 3).blk t).view.emb x) = _
  congr 1
  funext a
  apply Fin.ext
  match a with
  | ⟨0, _⟩ => show win3_3.index t 0 * 128 + 1 * (x 0).val = (i 0).val; rw [e0, h0]; omega
  | ⟨1, _⟩ => show win3_3.index t 1 * 128 + 1 * (x 1).val = (i 1).val; rw [e1, h1]; omega

/-- Window 4's block at any point is the whole bias array. -/
theorem iblk3_4_apply (c : Dev nD) (t : Fin cfg3.N) (x : S1x128.Idx) (i : S1x128.Idx)
    (h0 : (i 0).val = (x 0).val) (h1 : (i 1).val = (x 1).val) :
    (iblk3 V c 4 t : Vec Ideal S1x128 .f32) x = (V c (Pipeline.arrRef spec3 4) : S1x128.Idx → EReal) i := by
  obtain ⟨e0, e1⟩ := (idx_facts3 t).2.2.2.2.1
  unfold iblk3
  rw [View.read_apply]
  show (V c (Pipeline.arrRef spec3 4) : S1x128.Idx → EReal) (((cfg3.win 4).blk t).view.emb x) = _
  congr 1
  funext a
  apply Fin.ext
  match a with
  | ⟨0, _⟩ => show win3_4.index t 0 * 1 + 1 * (x 0).val = (i 0).val; rw [e0, h0]; omega
  | ⟨1, _⟩ => show win3_4.index t 1 * 128 + 1 * (x 1).val = (i 1).val; rw [e1, h1]; omega

set_option maxHeartbeats 1000000 in
/-- What point `t` writes back is block `t` of the update of the whole arrays as the region finds them. -/
theorem flushed3_eq (c : Dev nD) (t : Fin cfg3.N) :
    (dat3 (F := Ideal) V c).flushed 5 t
      = ((cfg3.win 5).blk t).view.read (Elt Ideal) (Cert.Sage.Spec.update (n := 100000) false (V c (Pipeline.arrRef spec3 0)) (V c (Pipeline.arrRef spec3 1))
        (V c (Pipeline.arrRef spec3 2)) (V c (Pipeline.arrRef spec3 3)) (fun q => V c (Pipeline.arrRef spec3 4) (ix2 (0 : Fin 1) q))) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  funext j
  show k3_pay1 (iblk3 V c 0 t) (iblk3 V c 1 t) (iblk3 V c 2 t) (iblk3 V c 3 t) (iblk3 V c 4 t)
      ((win3 5).xinj (grid3.coords t) j)
    = (Cert.Sage.Spec.update (n := 100000) false (V c (Pipeline.arrRef spec3 0)) (V c (Pipeline.arrRef spec3 1))
        (V c (Pipeline.arrRef spec3 2)) (V c (Pipeline.arrRef spec3 3)) (fun q => V c (Pipeline.arrRef spec3 4) (ix2 (0 : Fin 1) q))) (((cfg3.win 5).blk t).view.emb j)
  refine (congrArg (k3_pay1 (F := Ideal) _ _ _ _ _) (eq_ix2 (n0 := 5000) (n1 := 128) ((win3 5).xinj (grid3.coords t) j))).trans ?_
  rw [Sage.k3_eq_k2]
  refine (Sage.pay_lin_at _ _ _ _ _ _ _).trans ?_
  refine Eq.trans ?_ (update_false_apply _ _ _ _ _ _).symm
  obtain ⟨e0, e1⟩ := (idx_facts3 t).2.2.2.2.2
  have hr : ((((cfg3.win 5).blk t).view.emb j) 0).val = 5000 * t.val + (j 0).val := by
    show win3_5.index t 0 * 5000 + 1 * (j 0).val = _
    rw [e0]; omega
  have hc : ((((cfg3.win 5).blk t).view.emb j) 1).val = (j 1).val := by
    show win3_5.index t 1 * 128 + 1 * (j 1).val = _
    rw [e1]; omega
  exact lin_eq_linear _ _ _ _ _ _ _ _ _ _ _ _ _ _
    (fun k => iblk3_0_apply V c t _ _ hr rfl) (fun k => iblk3_1_apply V c t _ _ hr rfl)
    (fun k => iblk3_2_apply V c t _ _ rfl hc) (fun k => iblk3_3_apply V c t _ _ rfl hc)
    (iblk3_4_apply V c t _ _ rfl hc)

/-- An index of the result array is in point `t`'s block iff each coordinate is in the block's range on its axis. -/
theorem mem_blk3 (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v81).slice (win3_5.rect t)).set ↔ _
  rw [View.set_slice_whole, Rect.mem_set_unit]
  exact Iff.rfl

/-- Every entry of the result array is written by some point: row `r` by point `r / 5000`. -/
theorem covered3 (i : S100000x128.Idx) :
    ∃ t : Fin cfg3.N, (cfg3.win 5).flush t = true ∧ i ∈ ((cfg3.win 5).blk t).view.set := by
  have hi0 : (i 0).val < 100000 := idx2_lt0 i
  have hi1 : (i 1).val < 128 := idx2_lt1 i
  have hN : cfg3.N = 20 := N_3
  obtain ⟨t, ht⟩ : ∃ t : Fin cfg3.N, t.val = (i 0).val / 5000 := ⟨⟨(i 0).val / 5000, by omega⟩, rfl⟩
  obtain ⟨e0, e1⟩ := (idx_facts3 t).2.2.2.2.2
  refine ⟨t, flush3_5 t, ?_⟩
  rw [mem_blk3]
  intro a
  match a with
  | ⟨0, _⟩ =>
    show win3_5.index t 0 * 5000 ≤ (i 0).val ∧ (i 0).val < win3_5.index t 0 * 5000 + 5000
    rw [e0, ht]; omega
  | ⟨1, _⟩ =>
    show win3_5.index t 1 * 128 ≤ (i 1).val ∧ (i 1).val < win3_5.index t 1 * 128 + 128
    rw [e1]; omega

/-- The result array after region 3: the second-layer update of the five operand arrays as the region finds them. -/
theorem final3 (c : Dev nD) :
    (dat3 (F := Ideal) V c).arrAt 5 cfg3.N
      = (Cert.Sage.Spec.update (n := 100000) false (V c (Pipeline.arrRef spec3 0)) (V c (Pipeline.arrRef spec3 1))
        (V c (Pipeline.arrRef spec3 2)) (V c (Pipeline.arrRef spec3 3)) (fun q => V c (Pipeline.arrRef spec3 4) (ix2 (0 : Fin 1) q))) :=
  (dat3 V c).arrAt_eq_of_cover 5 _ (fun t _ => flushed3_eq V c t) covered3

end Cert.KernelIdeal.Updates

end
-- ==== Proof.ReferenceLayers.lean ====
/- The reference program's two layers and its edge scores as whole-array functions.

   Each of the four node updates of the reference is computed in seven or eight steps: a product of the aggregated
   features with a weight matrix, the bias vector spread over the rows and added, a product of the node's own features
   with a second weight matrix, added, and in layer 1 a cut at zero. Read at one entry (r, q) the result is
       (Σ_k agg[r,k]·Wl[k,q] + b[q]) + Σ_k x[r,k]·Wr[k,q],
   which on the extended reals is the node update (Σ_k agg·Wl + Σ_k x·Wr) + b of the specification: addition there
   is commutative and associative without side conditions. The edge scores are the row sums of the entrywise product
   of the two gathered endpoint arrays, started from zero. -/
import proofs.«157091_j58695023067699_1_alg».proof.Proof.Gen.ReferenceIdeal.Read
import proofs.«157091_j58695023067699_1_alg».proof.Proof.SageSpec

noncomputable section

namespace Cert.ReferenceIdeal.Layers

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx
open Cert.Sage

/-- A node update with the cut, read at an entry. -/
theorem update_cut {n : Nat} (agg x : (⟨2, ![n, 128]⟩ : Shape).Idx → EReal) (wl wr : (⟨2, ![128, 128]⟩ : Shape).Idx → EReal)
    (b : Fin 128 → EReal) (i : (⟨2, ![n, 128]⟩ : Shape).Idx) :
    Spec.update true agg x wl wr b i = max (Spec.linear agg x wl wr b ⟨(i 0).val, (i 0).isLt⟩ ⟨(i 1).val, (i 1).isLt⟩) 0 := rfl

/-- A node update without the cut, read at an entry. -/
theorem update_plain {n : Nat} (agg x : (⟨2, ![n, 128]⟩ : Shape).Idx → EReal) (wl wr : (⟨2, ![128, 128]⟩ : Shape).Idx → EReal)
    (b : Fin 128 → EReal) (i : (⟨2, ![n, 128]⟩ : Shape).Idx) :
    Spec.update false agg x wl wr b i = Spec.linear agg x wl wr b ⟨(i 0).val, (i 0).isLt⟩ ⟨(i 1).val, (i 1).isLt⟩ := rfl

/-- The reference's order of additions, (s₁ + b) + s₂, is the specification's (s₁ + s₂) + b: addition of extended
    reals is commutative and associative. -/
theorem plain_form (s1 bb s2 t : EReal) (h : s1 + s2 + bb = t) :
    FloatOps.addf (F := Ideal) (φ := FTy.f32) (FloatOps.addf (F := Ideal) (φ := FTy.f32) s1 bb) s2 = t := by
  subst h
  show s1 + bb + s2 = s1 + s2 + bb
  exact add_right_comm _ _ _

/-- The same under the cut at zero; the zero is the extended real encoded by the all-zero word. -/
theorem cut_form (s1 bb s2 t : EReal) (h : s1 + s2 + bb = t) :
    FloatOps.maximumf (F := Ideal) (φ := FTy.f32) (FloatOps.addf (F := Ideal) (φ := FTy.f32) (FloatOps.addf (F := Ideal) (φ := FTy.f32) s1 bb) s2)
      (FloatOps.ofBits (F := Ideal) FTy.f32 0x00000000#32) = max t 0 := by
  subst h
  show max (s1 + bb + s2) (Ideal.ofBits .f32 0x00000000#32) = max (s1 + s2 + bb) 0
  rw [Ideal.ofBits_zero_f32, add_right_comm]

/-- Layer 1 on the 50000 team nodes: the stage after the cut at zero is the node update of the aggregated expert features and the team features. -/
theorem layer1_team (x0 : (⟨S100000x128, .f32⟩ : BufTy).Contents (Elt Ideal)) (x1 : (⟨S50000x128, .f32⟩ : BufTy).Contents (Elt Ideal)) (x2 x3 : (⟨S600000, .i32⟩ : BufTy).Contents (Elt Ideal)) (x6 x7 : (⟨S128x128, .f32⟩ : BufTy).Contents (Elt Ideal)) (x14 : (⟨S128, .f32⟩ : BufTy).Contents (Elt Ideal)) :
    val_main_v24 (F := Ideal) x0 x1 x2 x3 x6 x7 x14 = Spec.update true (val_main_v17 (F := Ideal) x0 x2 x3) (x1) x6 x7 (fun q => x14 (ix1 q)) := by
  funext i
  rw [val_main_v24_apply, val_main_v23_apply, val_main_v21_apply, val_main_v18_apply, val_main_v22_apply, val_main_v20_apply, val_main_v19_apply, val_main_call0_v0_apply, val_main_call0_cst_apply]
  generalize val_main_v17 (F := Ideal) x0 x2 x3 = y
  have LA : ∀ k : Fin 128, lidx_main_v18 i k = ix2 (⟨(i 0).val, (i 0).isLt⟩ : Fin 50000) k :=
    fun k => funext fun a => by match a with | ⟨0, _⟩ => rfl | ⟨1, _⟩ => rfl
  have RA : ∀ k : Fin 128, ridx_main_v18 i k = ix2 k (⟨(i 1).val, (i 1).isLt⟩ : Fin 128) :=
    fun k => funext fun a => by match a with | ⟨0, _⟩ => rfl | ⟨1, _⟩ => rfl
  have LB : ∀ k : Fin 128, lidx_main_v22 i k = ix2 (⟨(i 0).val, (i 0).isLt⟩ : Fin 50000) k :=
    fun k => funext fun a => by match a with | ⟨0, _⟩ => rfl | ⟨1, _⟩ => rfl
  have RB : ∀ k : Fin 128, ridx_main_v22 i k = ix2 k (⟨(i 1).val, (i 1).isLt⟩ : Fin 128) :=
    fun k => funext fun a => by match a with | ⟨0, _⟩ => rfl | ⟨1, _⟩ => rfl
  have B : idx_main_v19 (idx_main_v20 i) = ix1 (⟨(i 1).val, (i 1).isLt⟩ : Fin 128) :=
    funext fun a => by match a with | ⟨0, _⟩ => rfl
  rw [update_cut]
  refine cut_form _ _ _ _ ?_
  simp only [LA, RA, LB, RB, B]
  rfl

/-- Layer 1 on the 100000 expert nodes: the stage after the cut at zero is the node update of the aggregated team features and the expert features. -/
theorem layer1_expert (x0 : (⟨S100000x128, .f32⟩ : BufTy).Contents (Elt Ideal)) (x1 : (⟨S50000x128, .f32⟩ : BufTy).Contents (Elt Ideal)) (x2 x3 : (⟨S600000, .i32⟩ : BufTy).Contents (Elt Ideal)) (x8 x9 : (⟨S128x128, .f32⟩ : BufTy).Contents (Elt Ideal)) (x15 : (⟨S128, .f32⟩ : BufTy).Contents (Elt Ideal)) :
    val_main_v49 (F := Ideal) x0 x1 x2 x3 x8 x9 x15 = Spec.update true (val_main_v42 (F := Ideal) x1 x2 x3) (x0) x8 x9 (fun q => x15 (ix1 q)) := by
  funext i
  rw [val_main_v49_apply, val_main_v48_apply, val_main_v46_apply, val_main_v43_apply, val_main_v47_apply, val_main_v45_apply, val_main_v44_apply, val_main_call1_v0_apply, val_main_call1_cst_apply]
  generalize val_main_v42 (F := Ideal) x1 x2 x3 = y
  have LA : ∀ k : Fin 128, lidx_main_v43 i k = ix2 (⟨(i 0).val, (i 0).isLt⟩ : Fin 100000) k :=
    fun k => funext fun a => by match a with | ⟨0, _⟩ => rfl | ⟨1, _⟩ => rfl
  have RA : ∀ k : Fin 128, ridx_main_v43 i k = ix2 k (⟨(i 1).val, (i 1).isLt⟩ : Fin 128) :=
    fun k => funext fun a => by match a with | ⟨0, _⟩ => rfl | ⟨1, _⟩ => rfl
  have LB : ∀ k : Fin 128, lidx_main_v47 i k = ix2 (⟨(i 0).val, (i 0).isLt⟩ : Fin 100000) k :=
    fun k => funext fun a => by match a with | ⟨0, _⟩ => rfl | ⟨1, _⟩ => rfl
  have RB : ∀ k : Fin 128, ridx_main_v47 i k = ix2 k (⟨(i 1).val, (i 1).isLt⟩ : Fin 128) :=
    fun k => funext fun a => by match a with | ⟨0, _⟩ => rfl | ⟨1, _⟩ => rfl
  have B : idx_main_v44 (idx_main_v45 i) = ix1 (⟨(i 1).val, (i 1).isLt⟩ : Fin 128) :=
    funext fun a => by match a with | ⟨0, _⟩ => rfl
  rw [update_cut]
  refine cut_form _ _ _ _ ?_
  simp only [LA, RA, LB, RB, B]
  rfl

/-- Layer 2 on the team nodes, with no cut: the node update of the aggregated layer-1 expert features and the layer-1 team features. -/
theorem layer2_team (x0 : (⟨S100000x128, .f32⟩ : BufTy).Contents (Elt Ideal)) (x1 : (⟨S50000x128, .f32⟩ : BufTy).Contents (Elt Ideal)) (x2 x3 : (⟨S600000, .i32⟩ : BufTy).Contents (Elt Ideal)) (x6 x7 x8 x9 x10 x11 : (⟨S128x128, .f32⟩ : BufTy).Contents (Elt Ideal)) (x14 x15 x16 : (⟨S128, .f32⟩ : BufTy).Contents (Elt Ideal)) :
    val_main_v73 (F := Ideal) x0 x1 x2 x3 x6 x7 x8 x9 x10 x11 x14 x15 x16 = Spec.update false (val_main_v67 (F := Ideal) x0 x1 x2 x3 x8 x9 x15) (val_main_v24 (F := Ideal) x0 x1 x2 x3 x6 x7 x14) x10 x11 (fun q => x16 (ix1 q)) := by
  funext i
  rw [val_main_v73_apply, val_main_v71_apply, val_main_v68_apply, val_main_v72_apply, val_main_v70_apply, val_main_v69_apply]
  generalize val_main_v67 (F := Ideal) x0 x1 x2 x3 x8 x9 x15 = y
  generalize val_main_v24 (F := Ideal) x0 x1 x2 x3 x6 x7 x14 = z
  have LA : ∀ k : Fin 128, lidx_main_v68 i k = ix2 (⟨(i 0).val, (i 0).isLt⟩ : Fin 50000) k :=
    fun k => funext fun a => by match a with | ⟨0, _⟩ => rfl | ⟨1, _⟩ => rfl
  have RA : ∀ k : Fin 128, ridx_main_v68 i k = ix2 k (⟨(i 1).val, (i 1).isLt⟩ : Fin 128) :=
    fun k => funext fun a => by match a with | ⟨0, _⟩ => rfl | ⟨1, _⟩ => rfl
  have LB : ∀ k : Fin 128, lidx_main_v72 i k = ix2 (⟨(i 0).val, (i 0).isLt⟩ : Fin 50000) k :=
    fun k => funext fun a => by match a with | ⟨0, _⟩ => rfl | ⟨1, _⟩ => rfl
  have RB : ∀ k : Fin 128, ridx_main_v72 i k = ix2 k (⟨(i 1).val, (i 1).isLt⟩ : Fin 128) :=
    fun k => funext fun a => by match a with | ⟨0, _⟩ => rfl | ⟨1, _⟩ => rfl
  have B : idx_main_v69 (idx_main_v70 i) = ix1 (⟨(i 1).val, (i 1).isLt⟩ : Fin 128) :=
    funext fun a => by match a with | ⟨0, _⟩ => rfl
  rw [update_plain]
  refine plain_form _ _ _ _ ?_
  simp only [LA, RA, LB, RB, B]
  rfl

/-- Layer 2 on the expert nodes, with no cut: the node update of the aggregated layer-1 team features and the layer-1 expert features. -/
theorem layer2_expert (x0 : (⟨S100000x128, .f32⟩ : BufTy).Contents (Elt Ideal)) (x1 : (⟨S50000x128, .f32⟩ : BufTy).Contents (Elt Ideal)) (x2 x3 : (⟨S600000, .i32⟩ : BufTy).Contents (Elt Ideal)) (x6 x7 x8 x9 x12 x13 : (⟨S128x128, .f32⟩ : BufTy).Contents (Elt Ideal)) (x14 x15 x17 : (⟨S128, .f32⟩ : BufTy).Contents (Elt Ideal)) :
    val_main_v97 (F := Ideal) x0 x1 x2 x3 x6 x7 x8 x9 x12 x13 x14 x15 x17 = Spec.update false (val_main_v91 (F := Ideal) x0 x1 x2 x3 x6 x7 x14) (val_main_v49 (F := Ideal) x0 x1 x2 x3 x8 x9 x15) x12 x13 (fun q => x17 (ix1 q)) := by
  funext i
  rw [val_main_v97_apply, val_main_v95_apply, val_main_v92_apply, val_main_v96_apply, val_main_v94_apply, val_main_v93_apply]
  generalize val_main_v91 (F := Ideal) x0 x1 x2 x3 x6 x7 x14 = y
  generalize val_main_v49 (F := Ideal) x0 x1 x2 x3 x8 x9 x15 = z
  have LA : ∀ k : Fin 128, lidx_main_v92 i k = ix2 (⟨(i 0).val, (i 0).isLt⟩ : Fin 100000) k :=
    fun k => funext fun a => by match a with | ⟨0, _⟩ => rfl | ⟨1, _⟩ => rfl
  have RA : ∀ k : Fin 128, ridx_main_v92 i k = ix2 k (⟨(i 1).val, (i 1).isLt⟩ : Fin 128) :=
    fun k => funext fun a => by match a with | ⟨0, _⟩ => rfl | ⟨1, _⟩ => rfl
  have LB : ∀ k : Fin 128, lidx_main_v96 i k = ix2 (⟨(i 0).val, (i 0).isLt⟩ : Fin 100000) k :=
    fun k => funext fun a => by match a with | ⟨0, _⟩ => rfl | ⟨1, _⟩ => rfl
  have RB : ∀ k : Fin 128, ridx_main_v96 i k = ix2 k (⟨(i 1).val, (i 1).isLt⟩ : Fin 128) :=
    fun k => funext fun a => by match a with | ⟨0, _⟩ => rfl | ⟨1, _⟩ => rfl
  have B : idx_main_v93 (idx_main_v94 i) = ix1 (⟨(i 1).val, (i 1).isLt⟩ : Fin 128) :=
    funext fun a => by match a with | ⟨0, _⟩ => rfl
  rw [update_plain]
  refine plain_form _ _ _ _ ?_
  simp only [LA, RA, LB, RB, B]
  rfl

/-- The edge scores: the sum over the 128 features of the products of the two gathered endpoint rows, the zero the sum
    starts from dropped. -/
theorem edge_scores (x0 : (⟨S100000x128, .f32⟩ : BufTy).Contents (Elt Ideal)) (x1 : (⟨S50000x128, .f32⟩ : BufTy).Contents (Elt Ideal)) (x2 x3 : (⟨S600000, .i32⟩ : BufTy).Contents (Elt Ideal)) (x4 x5 : (⟨S500000, .i32⟩ : BufTy).Contents (Elt Ideal)) (x6 x7 x8 x9 x10 x11 x12 x13 : (⟨S128x128, .f32⟩ : BufTy).Contents (Elt Ideal)) (x14 x15 x16 x17 : (⟨S128, .f32⟩ : BufTy).Contents (Elt Ideal)) :
    val_main_v113 (F := Ideal) x0 x1 x2 x3 x4 x5 x6 x7 x8 x9 x10 x11 x12 x13 x14 x15 x16 x17
      = Spec.edgeScore (val_main_v104 (F := Ideal) x0 x1 x2 x3 x4 x6 x7 x8 x9 x12 x13 x14 x15 x17) (val_main_v111 (F := Ideal) x0 x1 x2 x3 x5 x6 x7 x8 x9 x10 x11 x14 x15 x16) := by
  funext i
  rw [val_main_v113_apply, val_main_cst_26_apply]
  refine (congrArg (fun t => FloatOps.ofBits FTy.f32 0x00000000#32 + t) (Finset.sum_congr rfl fun k _ =>
    val_main_v112_apply x0 x1 x2 x3 x4 x5 x6 x7 x8 x9 x10 x11 x12 x13 x14 x15 x16 x17 (idx_main_v113 i k))).trans ?_
  generalize val_main_v104 (F := Ideal) x0 x1 x2 x3 x4 x6 x7 x8 x9 x12 x13 x14 x15 x17 = a
  generalize val_main_v111 (F := Ideal) x0 x1 x2 x3 x5 x6 x7 x8 x9 x10 x11 x14 x15 x16 = b
  have E : ∀ k : Fin 128, idx_main_v113 i k = ix2 (⟨(i 0).val, (i 0).isLt⟩ : Fin 500000) k :=
    fun k => funext fun a => by match a with | ⟨0, _⟩ => rfl | ⟨1, _⟩ => rfl
  show Ideal.ofBits .f32 0x00000000#32 + ∑ k, a (idx_main_v113 i k) * b (idx_main_v113 i k)
      = ∑ k : Fin 128, a (ix2 (⟨(i 0).val, (i 0).isLt⟩ : Fin 500000) k) * b (ix2 (⟨(i 0).val, (i 0).isLt⟩ : Fin 500000) k)
  rw [Ideal.ofBits_zero_f32, zero_add]
  simp only [E]

end Cert.ReferenceIdeal.Layers

end
-- ==== Proof.KernelValue.lean ====
/-
  The program's result buffer, followed through its run.

  The run alternates stretches of host operations with kernel launches; the buffer contents at each boundary
  are a fold W0, W1, …, W13 from the launch memory.  Layer by layer:
  * a host stretch gathers source rows along the edges, scatter-adds them onto their destination nodes,
    counts the edges per node, divides, and lays the bias vector out as a row — the very operations of the
    reference, so what the stretch leaves is the reference's stage of the same arguments;
  * the kernel that follows writes, block of 5000 rows by block, the node update of what it is handed, and its
    blocks tile the array, so what it leaves is the whole-array update — which is what the reference's
    matrix products and additions compute (the reference's stage);
  * after a first-layer kernel the host cuts at zero once more, which changes nothing.
  The last kernel leaves the column of edge scores, which the last host operation reads as a vector: the
  reference's final stage.
-/
import proofs.«157091_j58695023067699_1_alg».proof.Proof.Gen.KernelIdeal.Frame
import proofs.«157091_j58695023067699_1_alg».proof.Proof.Gen.ReferenceIdeal.Read
import proofs.«157091_j58695023067699_1_alg».proof.Proof.Boundaries
import proofs.«157091_j58695023067699_1_alg».proof.Proof.SageSpec
import proofs.«157091_j58695023067699_1_alg».proof.Proof.DotReduceRegion
import proofs.«157091_j58695023067699_1_alg».proof.Proof.UpdateRegions
import proofs.«157091_j58695023067699_1_alg».proof.Proof.ReferenceLayers
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen Cert.ReferenceIdeal.Read Cert.Sage

variable (m : (ℓ : Loc nD τ sig) → Buf (Elt Ideal) ℓ) (ρ : Dev nD → PrngReg) (c : Dev nD)

/-! ## Two small facts used at every layer -/

/-- Cutting an already cut update at zero once more changes nothing. -/
theorem cut_again {n : Nat} (a x : (⟨2, ![n, 128]⟩ : Shape).Idx → EReal) (wl wr : (⟨2, ![128, 128]⟩ : Shape).Idx → EReal) (b : Fin 128 → EReal)
    (h : (⟨0, ![]⟩ : Shape).BroadcastsInDim ⟨2, ![n, 128]⟩ ![]) :
    maximumf (F := Ideal) (Spec.update true a x wl wr b) (broadcastInDim ⟨2, ![n, 128]⟩ ![] h (constant (F := Ideal) ⟨0, ![]⟩ .f32 0x00000000#32))
      = Spec.update true a x wl wr b := by
  funext i
  rw [maximumf_apply, broadcastInDim_apply _ h _ i ix0 (fun a => a.elim0), constant_apply, Ideal.ofBits_zero_f32]
  simp only [Spec.update, if_true]
  exact max_eq_left (le_max_right _ _)

/-- A one-column array read as a vector: entry `p` is the column's entry `(p, 0)`. -/
theorem column_as_vector {n : Nat} (x : (⟨2, ![n, 1]⟩ : Shape).Idx → EReal) (h : (⟨2, ![n, 1]⟩ : Shape).ShapeCasts ⟨1, ![n]⟩) (p : Fin n) :
    shapeCast ⟨1, ![n]⟩ x h (ix1 p) = x (ix2 p (0 : Fin 1)) :=
  shapeCast_apply x h _ _ (by
    rw [Shape.rowMajor_val_two, Shape.rowMajor_val_one]
    show p.val * 1 + 0 = p.val
    omega)

/-! ## Layer 1, the team nodes -/

set_option maxHeartbeats 2000000 in
theorem agg_team1 : W1 m ρ c (Proc.devRef .tc main_v17) = (val_main_v17 (F := Ideal) (m ((c : Thread nD τ).loc main_arg0)) (m ((c : Thread nD τ).loc main_arg2)) (m ((c : Thread nD τ).loc main_arg3))) := by
  show StableHlo.after hostOps0 (W0 m ρ c) (Proc.devRef .tc main_v17) = _
  after_results_simp
  rfl

theorem bias_team1 (q : Fin 128) : W1 m ρ c (Proc.devRef .tc main_v18) (ix2 (0 : Fin 1) q) = (m ((c : Thread nD τ).loc main_arg14)) (ix1 q) := by
  show StableHlo.after hostOps0 (W0 m ρ c) (Proc.devRef .tc main_v18) (ix2 (0 : Fin 1) q) = _
  after_results_simp
  exact shapeCast_a_1a_apply _ _ 0 q

theorem out_team1 : W2 m ρ c (Proc.devRef .tc main_v19) = (val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg14))) :=
  (W2_arr m ρ c 5).trans <| (Cert.KernelIdeal.Updates.final0 (V1 m ρ) c).trans <|
    (congr (congr (congr (congr (congrArg (Spec.update true) (agg_team1 m ρ c)) (Boundaries.W1_main_arg1 m ρ c)) (Boundaries.W1_main_arg6 m ρ c)) (Boundaries.W1_main_arg7 m ρ c)) (funext fun q => bias_team1 m ρ c q)).trans (Cert.ReferenceIdeal.Layers.layer1_team (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg14))).symm

theorem h_team : W3 m ρ c (Proc.devRef .tc main_v20) = (val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg14))) := by
  show StableHlo.after hostOps1 (W2 m ρ c) (Proc.devRef .tc main_v20) = _
  after_results_simp
  show maximumf (F := Ideal) (W2 m ρ c (Proc.devRef .tc main_v19)) (broadcastInDim S50000x128 ![] bcast_S_S50000x128 (constant S_ .f32 0x00000000#32)) = _
  rw [out_team1 m ρ c, Cert.ReferenceIdeal.Layers.layer1_team (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg14))]
  exact cut_again _ _ _ _ _ _

/-! ## Layer 1, the expert nodes -/

set_option maxHeartbeats 2000000 in
theorem agg_expert1 : W4 m ρ c (Proc.devRef .tc main_v38) = (val_main_v42 (F := Ideal) (m ((c : Thread nD τ).loc main_arg1)) (m ((c : Thread nD τ).loc main_arg2)) (m ((c : Thread nD τ).loc main_arg3))) := by
  show StableHlo.after hostOps1_1 (W3 m ρ c) (Proc.devRef .tc main_v38) = _
  generalize hW : W3 m ρ c = Wv
  after_results_simp
  subst hW
  rw [Boundaries.W3_main_arg1 m ρ c, Boundaries.W3_main_arg2 m ρ c, Boundaries.W3_main_arg3 m ρ c]
  rfl

theorem bias_expert1 (q : Fin 128) : W4 m ρ c (Proc.devRef .tc main_v39) (ix2 (0 : Fin 1) q) = (m ((c : Thread nD τ).loc main_arg15)) (ix1 q) := by
  show StableHlo.after hostOps1_1 (W3 m ρ c) (Proc.devRef .tc main_v39) (ix2 (0 : Fin 1) q) = _
  generalize hW : W3 m ρ c = Wv
  after_results_simp
  subst hW
  rw [Boundaries.W3_main_arg15 m ρ c]
  exact shapeCast_a_1a_apply _ _ 0 q

theorem out_expert1 : W5 m ρ c (Proc.devRef .tc main_v40) = (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg15))) :=
  (W5_arr m ρ c 5).trans <| (Cert.KernelIdeal.Updates.final1 (V4 m ρ) c).trans <|
    (congr (congr (congr (congr (congrArg (Spec.update true) (agg_expert1 m ρ c)) (Boundaries.W4_main_arg0 m ρ c)) (Boundaries.W4_main_arg8 m ρ c)) (Boundaries.W4_main_arg9 m ρ c)) (funext fun q => bias_expert1 m ρ c q)).trans (Cert.ReferenceIdeal.Layers.layer1_expert (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg15))).symm

theorem h_expert : W6 m ρ c (Proc.devRef .tc main_v41) = (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg15))) := by
  show StableHlo.after hostOps2 (W5 m ρ c) (Proc.devRef .tc main_v41) = _
  after_results_simp
  show maximumf (F := Ideal) (W5 m ρ c (Proc.devRef .tc main_v40)) (broadcastInDim S100000x128 ![] bcast_S_S100000x128 (constant S_ .f32 0x00000000#32)) = _
  rw [out_expert1 m ρ c, Cert.ReferenceIdeal.Layers.layer1_expert (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg15))]
  exact cut_again _ _ _ _ _ _

/-! ## Layer 2, the team nodes -/

set_option maxHeartbeats 2000000 in
theorem agg_team2 : W7 m ρ c (Proc.devRef .tc main_v59) = (val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg15))) := by
  show StableHlo.after hostOps2_1 (W6 m ρ c) (Proc.devRef .tc main_v59) = _
  generalize hW : W6 m ρ c = Wv
  after_results_simp
  subst hW
  rw [h_expert m ρ c, Boundaries.W6_main_arg2 m ρ c, Boundaries.W6_main_arg3 m ρ c]
  rfl

theorem bias_team2 (q : Fin 128) : W7 m ρ c (Proc.devRef .tc main_v60) (ix2 (0 : Fin 1) q) = (m ((c : Thread nD τ).loc main_arg16)) (ix1 q) := by
  show StableHlo.after hostOps2_1 (W6 m ρ c) (Proc.devRef .tc main_v60) (ix2 (0 : Fin 1) q) = _
  generalize hW : W6 m ρ c = Wv
  after_results_simp
  subst hW
  rw [Boundaries.W6_main_arg16 m ρ c]
  exact shapeCast_a_1a_apply _ _ 0 q

theorem z_team : W8 m ρ c (Proc.devRef .tc main_v61) = (val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16))) :=
  (W8_arr m ρ c 5).trans <| (Cert.KernelIdeal.Updates.final2 (V7 m ρ) c).trans <|
    (congr (congr (congr (congr (congrArg (Spec.update false) (agg_team2 m ρ c)) ((Boundaries.W7_main_v20 m ρ c).trans (h_team m ρ c))) (Boundaries.W7_main_arg10 m ρ c)) (Boundaries.W7_main_arg11 m ρ c)) (funext fun q => bias_team2 m ρ c q)).trans (Cert.ReferenceIdeal.Layers.layer2_team (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16))).symm

/-! ## Layer 2, the expert nodes -/

set_option maxHeartbeats 2000000 in
theorem agg_expert2 : W9 m ρ c (Proc.devRef .tc main_v79) = (val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg14))) := by
  show StableHlo.after hostOps3 (W8 m ρ c) (Proc.devRef .tc main_v79) = _
  after_results_simp
  rw [(Boundaries.W8_main_v20 m ρ c).trans (h_team m ρ c), Boundaries.W8_main_arg2 m ρ c, Boundaries.W8_main_arg3 m ρ c]
  rfl

theorem bias_expert2 (q : Fin 128) : W9 m ρ c (Proc.devRef .tc main_v80) (ix2 (0 : Fin 1) q) = (m ((c : Thread nD τ).loc main_arg17)) (ix1 q) := by
  show StableHlo.after hostOps3 (W8 m ρ c) (Proc.devRef .tc main_v80) (ix2 (0 : Fin 1) q) = _
  after_results_simp
  rw [Boundaries.W8_main_arg17 m ρ c]
  exact shapeCast_a_1a_apply _ _ 0 q

theorem z_expert : W10 m ρ c (Proc.devRef .tc main_v81) = (val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg17))) :=
  (W10_arr m ρ c 5).trans <| (Cert.KernelIdeal.Updates.final3 (V9 m ρ) c).trans <|
    (congr (congr (congr (congr (congrArg (Spec.update false) (agg_expert2 m ρ c)) ((Boundaries.W9_main_v41 m ρ c).trans (h_expert m ρ c))) (Boundaries.W9_main_arg12 m ρ c)) (Boundaries.W9_main_arg13 m ρ c)) (funext fun q => bias_expert2 m ρ c q)).trans (Cert.ReferenceIdeal.Layers.layer2_expert (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg17))).symm

/-! ## The supervision edges -/

set_option maxHeartbeats 2000000 in
theorem src_rows : W11 m ρ c (Proc.devRef .tc main_v88) = (val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg17))) := by
  show StableHlo.after hostOps4 (W10 m ρ c) (Proc.devRef .tc main_v88) = _
  after_results_simp
  rw [z_expert m ρ c, Boundaries.W10_main_arg4 m ρ c]
  rfl

set_option maxHeartbeats 2000000 in
theorem dst_rows : W11 m ρ c (Proc.devRef .tc main_v95) = (val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16))) := by
  show StableHlo.after hostOps4 (W10 m ρ c) (Proc.devRef .tc main_v95) = _
  after_results_simp
  rw [(Boundaries.W10_main_v61 m ρ c).trans (z_team m ρ c), Boundaries.W10_main_arg5 m ρ c]
  rfl

theorem scores_column : W12 m ρ c (Proc.devRef .tc main_v96) = Cert.KernelIdeal.DotReduce.rowDots (val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg17))) (val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16))) :=
  (W12_arr m ρ c 2).trans <| (Cert.KernelIdeal.DotReduce.final4 (V11 m ρ) c).trans <|
    congr (congrArg Cert.KernelIdeal.DotReduce.rowDots (src_rows m ρ c)) (dst_rows m ρ c)

/-- THE RESULT: the program's result buffer after the run is the reference's last stage of the same arguments. -/
theorem result : W13 m ρ c (Proc.devRef .tc main_v97) = (val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  show StableHlo.after hostOps5 (W12 m ρ c) (Proc.devRef .tc main_v97) = _
  after_results_simp
  rw [scores_column m ρ c, Cert.ReferenceIdeal.Layers.edge_scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))]
  generalize (val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) (m ((c : Thread nD τ).loc main_arg17))) = A
  generalize (val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16))) = B
  funext i
  obtain ⟨p, rfl⟩ : ∃ p : Fin 500000, i = ix1 p := ⟨i 0, eq_ix1 i⟩
  exact (column_as_vector _ _ p).trans rfl

end Cert.KernelIdeal.Chain

end
-- ==== Proof.lean ====
/-
  The program is a two-layer neighbourhood-averaging network on a bipartite graph (expert nodes, team nodes,
  600000 edges) followed by a dot-product score on 500000 supervision edges.  Every gather, scatter-add, count,
  division and cut at zero between the kernel launches is the same host operation in the program and in the
  reference; what differs is that the program computes each node update
      (Σ_k agg[r,k]·Wl[k,q] + Σ_k x[r,k]·Wr[k,q]) + b[q]
  block by block in a kernel (first-layer updates cut at zero inside the kernel and once more outside), where the
  reference computes (agg·Wl + b) + x·Wr with whole-array products, and the edge scores Σ_k a[e,k]·b[e,k] in a
  kernel over blocks of 5000 edges.  On the extended reals the matrix operands' narrowing is the identity, a
  matrix product into a zero accumulator is the plain sum of products, addition is commutative and associative
  without side conditions, and cutting twice at zero is cutting once; so the two results are one function of
  the arguments, and no finiteness of the inputs is used.

  The three frames: the two kernel programs' runs are the generated frame certificates; the reference's frame
  is its generated run with the result dropped.  No operation of the program was rewritten by the
  idealization, so that claim is trivial.  The value claim: the program's run ends with the result buffer at
  the fold of its host stretches and kernels' write-backs (`RunValues`), that fold is the reference's last
  stage of the same argument arrays (`KernelValue`: layer by layer, each kernel's blocks tiled into one
  whole-array update), and the reference's run ends at that stage.
-/
import proofs.«157091_j58695023067699_1_alg».proof.Defs
import proofs.«157091_j58695023067699_1_alg».proof.Proof.Gen.Kernel
import proofs.«157091_j58695023067699_1_alg».proof.Proof.Gen.Kernel.Skeleton
import proofs.«157091_j58695023067699_1_alg».proof.Proof.Gen.Kernel.Launch
import proofs.«157091_j58695023067699_1_alg».proof.Proof.Gen.Kernel.Points
import proofs.«157091_j58695023067699_1_alg».proof.Proof.Gen.Kernel.Frame
import proofs.«157091_j58695023067699_1_alg».proof.Proof.Gen.KernelIdeal
import proofs.«157091_j58695023067699_1_alg».proof.Proof.Gen.KernelIdeal.Skeleton
import proofs.«157091_j58695023067699_1_alg».proof.Proof.Gen.KernelIdeal.Launch
import proofs.«157091_j58695023067699_1_alg».proof.Proof.Gen.KernelIdeal.Points
import proofs.«157091_j58695023067699_1_alg».proof.Proof.Gen.KernelIdeal.Frame
import proofs.«157091_j58695023067699_1_alg».proof.Proof.Gen.ReferenceIdeal
import proofs.«157091_j58695023067699_1_alg».proof.Proof.Gen.Pre_finite_inputs
import proofs.«157091_j58695023067699_1_alg».proof.Proof.Gen.ReferenceIdeal.Run
import proofs.«157091_j58695023067699_1_alg».proof.Proof.Gen.ReferenceIdeal.Read
import proofs.«157091_j58695023067699_1_alg».proof.Proof.RunValues
import proofs.«157091_j58695023067699_1_alg».proof.Proof.KernelValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's last stage of the (agreeing) argument arrays. -/
theorem algebraic : Cert.algebraic_KernelIdeal_ReferenceIdeal := by
  intro m ρ m' ρ' _ hagree
  refine ⟨fun c => Cert.ReferenceIdeal.Read.val_main_v113 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Chain.result m ρ c), (h c).2⟩)
      (Cert.KernelIdeal.RunValues.run_values m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17⟩ := hagree c
    rw [Cert.ReferenceIdeal.Read.val_main_v113_eq, a0, a1, a2, a3, a4, a5, a6, a7, a8, a9, a10, a11, a12, a13, a14, a15, a16, a17]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
